-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000 : Shape := ⟨1, ![40000]⟩
abbrev S2x640000 : Shape := ⟨2, ![2, 640000]⟩
abbrev S10000x64 : Shape := ⟨2, ![10000, 64]⟩
abbrev S64x256 : Shape := ⟨2, ![64, 256]⟩
abbrev S256 : Shape := ⟨1, ![256]⟩
abbrev S5x256x256 : Shape := ⟨3, ![5, 256, 256]⟩
abbrev S5x256 : Shape := ⟨2, ![5, 256]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S512x1 : Shape := ⟨2, ![512, 1]⟩
abbrev S1 : Shape := ⟨1, ![1]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S512x1 .f32) (main_arg15 : FVec F S1 .f32) (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  let main_v54 : FVec F S512x1 .f32 := Host.absf main_arg14
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S256x512 .f32) (main_arg11 : FVec F S512 .f32) (main_arg12 : FVec F S2x512x512 .f32) (main_arg13 : FVec F S2x512 .f32) (main_arg14 : FVec F S512x1 .f32) (main_arg15 : FVec F S1 .f32) (main_v33 : IVec S_ 1) : IVec S_ 1 :=
  let main_v34 : FVec F S256x512 .f32 := Host.absf main_arg10
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg11
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S2x512x512 .f32 := Host.absf main_arg12
  let main_cst_16 : FVec F S_ .f32 := constant S_ .f32 0x7F800000#32
  let main_v45 : FVec F S2x512x512 .f32 := broadcastInDim S2x512x512 ![] bcast_S_S2x512x512 main_cst_16
  let main_v46 : IVec S2x512x512 1 := cmpf .olt main_v44 main_v45
  let main_c_17 : IVec S_ 1 := constantI S_ 1 1#1
  let main_v47 : IVec S_ 1 := (fun x v => Host.reduce IntOp.andi x v reducesTo_S2x512x512_S_d0_1_2 h_S_) main_v46 main_c_17
  let main_v48 : IVec S_ 1 := andi main_v43 main_v47
  let main_v49 : FVec F S2x512 .f32 := Host.absf main_arg13
  let main_cst_18 : FVec F S_ .f32 := constant S_ .f32 0x7F800000#32
  let main_v50 : FVec F S2x512 .f32 := broadcastInDim S2x512 ![] bcast_S_S2x512 main_cst_18
  fn_part3 (F := F) main_arg14 main_arg15 main_v48 main_v49 main_v50

def fn_part1 {F : FTy → Type} [FloatOps F] (main_arg7 : FVec F S5x256x256 .f32) (main_arg8 : FVec F S5x256 .f32) (main_arg9 : FVec F S5x256x256 .f32) (main_arg10 : FVec F S256x512 .f32) (main_arg11 : FVec F S512 .f32) (main_arg12 : FVec F S2x512x512 .f32) (main_arg13 : FVec F S2x512 .f32) (main_arg14 : FVec F S512x1 .f32) (main_arg15 : FVec F S1 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S5x256x256 .f32 := Host.absf main_arg7
  let main_cst_6 : FVec F S_ .f32 := constant S_ .f32 0x7F800000#32
  let main_v20 : FVec F S5x256x256 .f32 := broadcastInDim S5x256x256 ![] bcast_S_S5x256x256 main_cst_6
  let main_v21 : IVec S5x256x256 1 := cmpf .olt main_v19 main_v20
  let main_c_7 : IVec S_ 1 := constantI S_ 1 1#1
  let main_v22 : IVec S_ 1 := (fun x v => Host.reduce IntOp.andi x v reducesTo_S5x256x256_S_d0_1_2 h_S_) main_v21 main_c_7
  let main_v23 : IVec S_ 1 := andi main_v18 main_v22
  let main_v24 : FVec F S5x256 .f32 := Host.absf main_arg8
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256x256 .f32 := Host.absf main_arg9
  let main_cst_10 : FVec F S_ .f32 := constant S_ .f32 0x7F800000#32
  let main_v30 : FVec F S5x256x256 .f32 := broadcastInDim S5x256x256 ![] bcast_S_S5x256x256 main_cst_10
  let main_v31 : IVec S5x256x256 1 := cmpf .olt main_v29 main_v30
  let main_c_11 : IVec S_ 1 := constantI S_ 1 1#1
  let main_v32 : IVec S_ 1 := (fun x v => Host.reduce IntOp.andi x v reducesTo_S5x256x256_S_d0_1_2 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S40000 32) (main_arg1 : IVec S2x640000 32) (main_arg2 : IVec S40000 32) (main_arg3 : FVec F S10000x64 .f32) (main_arg4 : FVec F S64x256 .f32) (main_arg5 : FVec F S256 .f32) (main_arg6 : FVec F S64x256 .f32) (main_arg7 : FVec F S5x256x256 .f32) (main_arg8 : FVec F S5x256 .f32) (main_arg9 : FVec F S5x256x256 .f32) (main_arg10 : FVec F S256x512 .f32) (main_arg11 : FVec F S512 .f32) (main_arg12 : FVec F S2x512x512 .f32) (main_arg13 : FVec F S2x512 .f32) (main_arg14 : FVec F S512x1 .f32) (main_arg15 : FVec F S1 .f32) : IVec S_ 1 :=
  let main_v0 : FVec F S10000x64 .f32 := Host.absf main_arg3
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x256 .f32 := Host.absf main_arg4
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg6
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg7 main_arg8 main_arg9 main_arg10 main_arg11 main_arg12 main_arg13 main_arg14 main_arg15 main_v13 main_v16
-- ==== Kernel.lean ====
abbrev S40000 : Shape := ⟨1, ![40000]⟩
abbrev S2x640000 : Shape := ⟨2, ![2, 640000]⟩
abbrev S10000x64 : Shape := ⟨2, ![10000, 64]⟩
abbrev S64x256 : Shape := ⟨2, ![64, 256]⟩
abbrev S256 : Shape := ⟨1, ![256]⟩
abbrev S5x256x256 : Shape := ⟨3, ![5, 256, 256]⟩
abbrev S5x256 : Shape := ⟨2, ![5, 256]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S512x1 : Shape := ⟨2, ![512, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S40000x64 : Shape := ⟨2, ![40000, 64]⟩
abbrev S640000x1 : Shape := ⟨2, ![640000, 1]⟩
abbrev S640000x64 : Shape := ⟨2, ![640000, 64]⟩
abbrev S1x256 : Shape := ⟨2, ![1, 256]⟩
abbrev S40000x256 : Shape := ⟨2, ![40000, 256]⟩
abbrev S2000x64 : Shape := ⟨2, ![2000, 64]⟩
abbrev S2000x256 : Shape := ⟨2, ![2000, 256]⟩
abbrev S1x256x256 : Shape := ⟨3, ![1, 256, 256]⟩
abbrev S256x256 : Shape := ⟨2, ![256, 256]⟩
abbrev S640000x256 : Shape := ⟨2, ![640000, 256]⟩
abbrev S128x256 : Shape := ⟨2, ![128, 256]⟩
abbrev S1x512 : Shape := ⟨2, ![1, 512]⟩
abbrev S2x1x512 : Shape := ⟨3, ![2, 1, 512]⟩
abbrev S1x1 : Shape := ⟨2, ![1, 1]⟩
abbrev S128x1 : Shape := ⟨2, ![128, 1]⟩
abbrev S128x512 : Shape := ⟨2, ![128, 512]⟩
abbrev S1x512x512 : Shape := ⟨3, ![1, 512, 512]⟩
abbrev S512x512 : Shape := ⟨2, ![512, 512]⟩
abbrev S1x1x512 : Shape := ⟨3, ![1, 1, 512]⟩

abbrev nBuf : Space → Nat
  | .hbm => 157
  | .vmem => 62
  | .smem => 0
  | _ => 0

abbrev hbmTy0_0 (i : Nat) : BufTy := match i % 128 with
  | 0 => ⟨S40000, .i32⟩
  | 1 => ⟨S2x640000, .i32⟩
  | 2 => ⟨S40000, .i32⟩
  | 3 => ⟨S10000x64, .f32⟩
  | 4 => ⟨S64x256, .f32⟩
  | 5 => ⟨S256, .f32⟩
  | 6 => ⟨S64x256, .f32⟩
  | 7 => ⟨S5x256x256, .f32⟩
  | 8 => ⟨S5x256, .f32⟩
  | 9 => ⟨S5x256x256, .f32⟩
  | 10 => ⟨S256x512, .f32⟩
  | 11 => ⟨S512, .f32⟩
  | 12 => ⟨S2x512x512, .f32⟩
  | 13 => ⟨S2x512, .f32⟩
  | 14 => ⟨S512x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S40000, .i32⟩
  | 22 => ⟨S40000, .i1⟩
  | 23 => ⟨S_, .i32⟩
  | 24 => ⟨S40000, .i32⟩
  | 25 => ⟨S40000, .i32⟩
  | 26 => ⟨S40000, .i32⟩
  | 27 => ⟨S40000x1, .i32⟩
  | 28 => ⟨S40000x64, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x64, .f32⟩
  | 38 => ⟨S_, .f32⟩
  | 39 => ⟨S40000x64, .f32⟩
  | 40 => ⟨S640000x1, .i32⟩
  | 41 => ⟨S40000x64, .f32⟩
  | 42 => ⟨S1x256, .f32⟩
  | 43 => ⟨S40000x256, .f32⟩
  | 44 => ⟨S1x256x256, .f32⟩
  | 45 => ⟨S256x256, .f32⟩
  | 46 => ⟨S1x256, .f32⟩
  | 47 => ⟨S256, .f32⟩
  | 48 => ⟨S1x256x256, .f32⟩
  | 49 => ⟨S256x256, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x256, .f32⟩
  | 59 => ⟨S_, .f32⟩
  | 60 => ⟨S40000x256, .f32⟩
  | 61 => ⟨S640000x1, .i32⟩
  | 62 => ⟨S40000x256, .f32⟩
  | 63 => ⟨S1x256, .f32⟩
  | 64 => ⟨S40000x256, .f32⟩
  | 65 => ⟨S1x256x256, .f32⟩
  | 66 => ⟨S256x256, .f32⟩
  | 67 => ⟨S1x256, .f32⟩
  | 68 => ⟨S256, .f32⟩
  | 69 => ⟨S1x256x256, .f32⟩
  | 70 => ⟨S256x256, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x256, .f32⟩
  | 80 => ⟨S_, .f32⟩
  | 81 => ⟨S40000x256, .f32⟩
  | 82 => ⟨S640000x1, .i32⟩
  | 83 => ⟨S40000x256, .f32⟩
  | 84 => ⟨S1x256, .f32⟩
  | 85 => ⟨S40000x256, .f32⟩
  | 86 => ⟨S1x256x256, .f32⟩
  | 87 => ⟨S256x256, .f32⟩
  | 88 => ⟨S1x256, .f32⟩
  | 89 => ⟨S256, .f32⟩
  | 90 => ⟨S1x256x256, .f32⟩
  | 91 => ⟨S256x256, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000x256, .f32⟩
  | 101 => ⟨S_, .f32⟩
  | 102 => ⟨S40000x256, .f32⟩
  | 103 => ⟨S640000x1, .i32⟩
  | 104 => ⟨S40000x256, .f32⟩
  | 105 => ⟨S1x256, .f32⟩
  | 106 => ⟨S40000x256, .f32⟩
  | 107 => ⟨S1x256x256, .f32⟩
  | 108 => ⟨S256x256, .f32⟩
  | 109 => ⟨S1x256, .f32⟩
  | 110 => ⟨S256, .f32⟩
  | 111 => ⟨S1x256x256, .f32⟩
  | 112 => ⟨S256x256, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x256, .f32⟩
  | 122 => ⟨S_, .f32⟩
  | 123 => ⟨S40000x256, .f32⟩
  | 124 => ⟨S640000x1, .i32⟩
  | 125 => ⟨S40000x256, .f32⟩
  | 126 => ⟨S1x256, .f32⟩
  | 127 => ⟨S40000x256, .f32⟩
  | _ => ⟨S40000, .i32⟩

abbrev hbmTy0_1 (i : Nat) : BufTy := match i % 128 with
  | 0 => ⟨S1x256x256, .f32⟩
  | 1 => ⟨S256x256, .f32⟩
  | 2 => ⟨S1x256, .f32⟩
  | 3 => ⟨S256, .f32⟩
  | 4 => ⟨S1x256x256, .f32⟩
  | 5 => ⟨S256x256, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x256, .f32⟩
  | 15 => ⟨S_, .f32⟩
  | 16 => ⟨S40000x256, .f32⟩
  | 17 => ⟨S640000x1, .i32⟩
  | 18 => ⟨S40000x256, .f32⟩
  | 19 => ⟨S1x256, .f32⟩
  | 20 => ⟨S40000x256, .f32⟩
  | 21 => ⟨S_, .f32⟩
  | 22 => ⟨S128x256, .f32⟩
  | 23 => ⟨S40000x1, .i32⟩
  | 24 => ⟨S128x256, .f32⟩
  | 25 => ⟨S1x512, .f32⟩
  | 26 => ⟨S2x1x512, .f32⟩
  | 27 => ⟨S1x1, .f32⟩
  | 28 => ⟨S128x1, .f32⟩
  | _ => ⟨S40000, .i32⟩

abbrev hbmTy (i : Nat) : BufTy := match i / 128 with
  | 0 => hbmTy0_0 i
  | 1 => hbmTy0_1 i
  | _ => ⟨S40000, .i32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S1x256, .f32⟩
  | .local _ .vmem, ⟨6, _⟩ => ⟨S64x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S1x256, .f32⟩
  | .local _ .vmem, ⟨33, _⟩ => ⟨S256x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S256x256, .f32⟩
  | .local _ .vmem, ⟨50, _⟩ => ⟨S1x256, .f32⟩
  | .local _ .vmem, ⟨51, _⟩ => ⟨S256x256, .f32⟩
  | .local _ .vmem, ⟨52, _⟩ => ⟨S2000x256, .f32⟩
  | .local _ .vmem, ⟨53, _⟩ => ⟨S2000x256, .f32⟩
  | .local _ .vmem, ⟨54, _⟩ => ⟨S128x256, .f32⟩
  | .local _ .vmem, ⟨55, _⟩ => ⟨S256x512, .f32⟩
  | .local _ .vmem, ⟨56, _⟩ => ⟨S1x512, .f32⟩
  | .local _ .vmem, ⟨57, _⟩ => ⟨S2x512x512, .f32⟩
  | .local _ .vmem, ⟨58, _⟩ => ⟨S2x1x512, .f32⟩
  | .local _ .vmem, ⟨59, _⟩ => ⟨S512x1, .f32⟩
  | .local _ .vmem, ⟨60, _⟩ => ⟨S1x1, .f32⟩
  | .local _ .vmem, ⟨61, _⟩ => ⟨S128x1, .f32⟩
  | _, _ => ⟨S40000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_9 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_12 : Ref sig .tc := ⟨.hbm, 113, rfl⟩
abbrev main_v83 : Ref sig .tc := ⟨.hbm, 114, rfl⟩
abbrev main_v84 : Ref sig .tc := ⟨.hbm, 115, rfl⟩
abbrev main_c_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_14 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_15 : Ref sig .tc := ⟨.hbm, 134, rfl⟩
abbrev main_v101 : Ref sig .tc := ⟨.hbm, 135, rfl⟩
abbrev main_v102 : Ref sig .tc := ⟨.hbm, 136, rfl⟩
abbrev main_c_16 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_17 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2x512x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S2x1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x64 : S_.BroadcastsInDim S40000x64 (![] : Fin 0 → Fin S40000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  bcast_S_S40000x256 : S_.BroadcastsInDim S40000x256 (![] : Fin 0 → Fin S40000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  bcast_S_S128x256 : S_.BroadcastsInDim S128x256 (![] : Fin 0 → Fin S128x256.rank)
  shapeCasts_S512_S1x512 : S512.ShapeCasts S1x512
  shapeCasts_S2x512_S2x1x512 : S2x512.ShapeCasts S2x1x512
  shapeCasts_S1_S1x1 : S1.ShapeCasts S1x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  inb_S2x512x512_S1x512x512_1_0_0 : ∀ a, (![1, 0, 0] : Fin 3 → Nat) a + S1x512x512.size a ≤ S2x512x512.size a
  inb_S2x1x512_S1x1x512_1_0_0 : ∀ a, (![1, 0, 0] : Fin 3 → Nat) a + S1x1x512.size a ≤ S2x1x512.size a
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S10000x64_S40000x1_S40000x64_1_0_n_n_0_1_164_wf : GatherDims.WF S10000x64 S40000x1 S40000x64 [1] [0] [] [0] [] 1 ![1, 64]
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S2000x64_S64x256_S2000x256_1_0_0_1_n_n_wf : DotDims.WF S2000x64 S64x256 S2000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S2000x256_S256x256_S2000x256_1_0_0_1_n_n_wf : DotDims.WF S2000x256 S256x256 S2000x256 [1] [0] [0] [1] [] []
  scatter_S128x256_S40000x1_S40000x256_1_0_0_1_wf : ScatterDims.WF S128x256 S40000x1 S40000x256 [1] [0] [0] 1
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S40000x64.size a
  hwx0_0 : ∀ i : grid0.Coords, EltTy.bits .f32 = 32 ∨ (Rect.block (s := S40000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S40000x64.size a
  hwx0_1 : ∀ i : grid0.Coords, EltTy.bits .f32 = 32 ∨ (Rect.block (s := S40000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S40000x256.size a
  hwx0_5 : ∀ i : grid0.Coords, EltTy.bits .f32 = 32 ∨ (Rect.block (s := S40000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .f32 = 32 ∨ (Rect.block (s := S40000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S40000x256.size a
  hwx1_5 : ∀ i : grid1.Coords, EltTy.bits .f32 = 32 ∨ (Rect.block (s := S40000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S40000x256.size a
  hwx2_1 : ∀ i : grid2.Coords, EltTy.bits .f32 = 32 ∨ (Rect.block (s := S40000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S40000x256.size a
  hwx2_5 : ∀ i : grid2.Coords, EltTy.bits .f32 = 32 ∨ (Rect.block (s := S40000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S40000x256.size a
  hwx3_0 : ∀ i : grid3.Coords, EltTy.bits .f32 = 32 ∨ (Rect.block (s := S40000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S40000x256.size a
  hwx3_1 : ∀ i : grid3.Coords, EltTy.bits .f32 = 32 ∨ (Rect.block (s := S40000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S40000x256.size a
  hwx3_5 : ∀ i : grid3.Coords, EltTy.bits .f32 = 32 ∨ (Rect.block (s := S40000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S40000x256.size a
  hwx4_0 : ∀ i : grid4.Coords, EltTy.bits .f32 = 32 ∨ (Rect.block (s := S40000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S40000x256.size a
  hwx4_1 : ∀ i : grid4.Coords, EltTy.bits .f32 = 32 ∨ (Rect.block (s := S40000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S40000x256.size a
  hwx4_5 : ∀ i : grid4.Coords, EltTy.bits .f32 = 32 ∨ (Rect.block (s := S40000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S40000x256.size a
  hwx5_0 : ∀ i : grid5.Coords, EltTy.bits .f32 = 32 ∨ (Rect.block (s := S40000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S40000x256.size a
  hwx5_1 : ∀ i : grid5.Coords, EltTy.bits .f32 = 32 ∨ (Rect.block (s := S40000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S40000x256.size a
  hwx5_5 : ∀ i : grid5.Coords, EltTy.bits .f32 = 32 ∨ (Rect.block (s := S40000x256) S2000x256.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x256.size a ≤ S128x256.size a
  hwx6_0 : ∀ i : grid6.Coords, EltTy.bits .f32 = 32 ∨ (Rect.block (s := S128x256) S128x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2x512x512.size a ≤ S2x512x512.size a
  hwx6_3 : ∀ i : grid6.Coords, EltTy.bits .f32 = 32 ∨ (Rect.block (s := S2x512x512) S2x512x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S2x1x512.size a ≤ S2x1x512.size a
  hwx6_4 : ∀ i : grid6.Coords, EltTy.bits .f32 = 32 ∨ (Rect.block (s := S2x1x512) S2x1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x1.size a ≤ S128x1.size a
  hwx6_7 : ∀ i : grid6.Coords, EltTy.bits .f32 = 32 ∨ (Rect.block (s := S128x1) S128x1.size (cc6_transform_7 i) (hinb6_7 i)).WholeWords (EltTy.packing .f32)

variable [Facts₀]

def gather_S10000x64_S40000x1_S40000x64_1_0_n_n_0_1_164 : GatherDims S10000x64 S40000x1 S40000x64 where
  offsetDims := [1]
  collapsedSliceDims := [0]
  operandBatchingDims := []
  startIndicesBatchingDims := []
  startIndexMap := [0]
  indexVectorDim := 1
  sliceSizes := ![1, 64]
  wf := gather_S10000x64_S40000x1_S40000x64_1_0_n_n_0_1_164_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S128x256_S40000x1_S40000x256_1_0_0_1 : ScatterDims S128x256 S40000x1 S40000x256 where
  updateWindowDims := [1]
  insertedWindowDims := [0]
  scatterDimsToOperandDims := [0]
  indexVectorDim := 1
  wf := scatter_S128x256_S40000x1_S40000x256_1_0_0_1_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

abbrev win0_0 : Pipeline.Window sig grid0 :=
  Pipeline.Window.ofSpec (Memref.whole main_v20) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v92) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v110) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v96) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v100) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v112) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v115) S128x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v116) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S2x512x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S2x1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg14) S512x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v118) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v119) S128x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S40000 : Shape := ⟨1, ![40000]⟩
abbrev S2x640000 : Shape := ⟨2, ![2, 640000]⟩
abbrev S10000x64 : Shape := ⟨2, ![10000, 64]⟩
abbrev S64x256 : Shape := ⟨2, ![64, 256]⟩
abbrev S256 : Shape := ⟨1, ![256]⟩
abbrev S5x256x256 : Shape := ⟨3, ![5, 256, 256]⟩
abbrev S5x256 : Shape := ⟨2, ![5, 256]⟩
abbrev S256x512 : Shape := ⟨2, ![256, 512]⟩
abbrev S512 : Shape := ⟨1, ![512]⟩
abbrev S2x512x512 : Shape := ⟨3, ![2, 512, 512]⟩
abbrev S2x512 : Shape := ⟨2, ![2, 512]⟩
abbrev S512x1 : Shape := ⟨2, ![512, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S40000x64 : Shape := ⟨2, ![40000, 64]⟩
abbrev S640000x1 : Shape := ⟨2, ![640000, 1]⟩
abbrev S640000x64 : Shape := ⟨2, ![640000, 64]⟩
abbrev S40000x256 : Shape := ⟨2, ![40000, 256]⟩
abbrev S1x256 : Shape := ⟨2, ![1, 256]⟩
abbrev S1x256x256 : Shape := ⟨3, ![1, 256, 256]⟩
abbrev S256x256 : Shape := ⟨2, ![256, 256]⟩
abbrev S640000x256 : Shape := ⟨2, ![640000, 256]⟩
abbrev S128x256 : Shape := ⟨2, ![128, 256]⟩
abbrev S128x512 : Shape := ⟨2, ![128, 512]⟩
abbrev S1x512 : Shape := ⟨2, ![1, 512]⟩
abbrev S1x512x512 : Shape := ⟨3, ![1, 512, 512]⟩
abbrev S512x512 : Shape := ⟨2, ![512, 512]⟩
abbrev S128x1 : Shape := ⟨2, ![128, 1]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S40000, .i32⟩
  | 1 => ⟨S2x640000, .i32⟩
  | 2 => ⟨S40000, .i32⟩
  | 3 => ⟨S10000x64, .f32⟩
  | 4 => ⟨S64x256, .f32⟩
  | 5 => ⟨S256, .f32⟩
  | 6 => ⟨S64x256, .f32⟩
  | 7 => ⟨S5x256x256, .f32⟩
  | 8 => ⟨S5x256, .f32⟩
  | 9 => ⟨S5x256x256, .f32⟩
  | 10 => ⟨S256x512, .f32⟩
  | 11 => ⟨S512, .f32⟩
  | 12 => ⟨S2x512x512, .f32⟩
  | 13 => ⟨S2x512, .f32⟩
  | 14 => ⟨S512x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S_, .i32⟩
  | 21 => ⟨S40000, .i32⟩
  | 22 => ⟨S40000, .i1⟩
  | 23 => ⟨S_, .i32⟩
  | 24 => ⟨S40000, .i32⟩
  | 25 => ⟨S40000, .i32⟩
  | 26 => ⟨S40000, .i32⟩
  | 27 => ⟨S40000x1, .i32⟩
  | 28 => ⟨S40000x64, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x64, .f32⟩
  | 38 => ⟨S_, .f32⟩
  | 39 => ⟨S40000x64, .f32⟩
  | 40 => ⟨S640000x1, .i32⟩
  | 41 => ⟨S40000x64, .f32⟩
  | 42 => ⟨S40000x256, .f32⟩
  | 43 => ⟨S1x256, .f32⟩
  | 44 => ⟨S40000x256, .f32⟩
  | 45 => ⟨S40000x256, .f32⟩
  | 46 => ⟨S40000x256, .f32⟩
  | 47 => ⟨S40000x256, .f32⟩
  | 48 => ⟨S_, .f32⟩
  | 49 => ⟨S40000x256, .f32⟩
  | 50 => ⟨S40000x256, .f32⟩
  | 51 => ⟨S1x256x256, .f32⟩
  | 52 => ⟨S256x256, .f32⟩
  | 53 => ⟨S1x256, .f32⟩
  | 54 => ⟨S256, .f32⟩
  | 55 => ⟨S1x256x256, .f32⟩
  | 56 => ⟨S256x256, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x256, .f32⟩
  | 66 => ⟨S_, .f32⟩
  | 67 => ⟨S40000x256, .f32⟩
  | 68 => ⟨S640000x1, .i32⟩
  | 69 => ⟨S40000x256, .f32⟩
  | 70 => ⟨S40000x256, .f32⟩
  | 71 => ⟨S1x256, .f32⟩
  | 72 => ⟨S40000x256, .f32⟩
  | 73 => ⟨S40000x256, .f32⟩
  | 74 => ⟨S40000x256, .f32⟩
  | 75 => ⟨S40000x256, .f32⟩
  | 76 => ⟨S_, .f32⟩
  | 77 => ⟨S40000x256, .f32⟩
  | 78 => ⟨S40000x256, .f32⟩
  | 79 => ⟨S1x256x256, .f32⟩
  | 80 => ⟨S256x256, .f32⟩
  | 81 => ⟨S1x256, .f32⟩
  | 82 => ⟨S256, .f32⟩
  | 83 => ⟨S1x256x256, .f32⟩
  | 84 => ⟨S256x256, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x256, .f32⟩
  | 94 => ⟨S_, .f32⟩
  | 95 => ⟨S40000x256, .f32⟩
  | 96 => ⟨S640000x1, .i32⟩
  | 97 => ⟨S40000x256, .f32⟩
  | 98 => ⟨S40000x256, .f32⟩
  | 99 => ⟨S1x256, .f32⟩
  | 100 => ⟨S40000x256, .f32⟩
  | 101 => ⟨S40000x256, .f32⟩
  | 102 => ⟨S40000x256, .f32⟩
  | 103 => ⟨S40000x256, .f32⟩
  | 104 => ⟨S_, .f32⟩
  | 105 => ⟨S40000x256, .f32⟩
  | 106 => ⟨S40000x256, .f32⟩
  | 107 => ⟨S1x256x256, .f32⟩
  | 108 => ⟨S256x256, .f32⟩
  | 109 => ⟨S1x256, .f32⟩
  | 110 => ⟨S256, .f32⟩
  | 111 => ⟨S1x256x256, .f32⟩
  | 112 => ⟨S256x256, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x256, .f32⟩
  | 122 => ⟨S_, .f32⟩
  | 123 => ⟨S40000x256, .f32⟩
  | 124 => ⟨S640000x1, .i32⟩
  | 125 => ⟨S40000x256, .f32⟩
  | 126 => ⟨S40000x256, .f32⟩
  | 127 => ⟨S1x256, .f32⟩
  | _ => ⟨S40000, .i32⟩

abbrev hbmTy0_1 (i : Nat) : BufTy := match i % 128 with
  | 0 => ⟨S40000x256, .f32⟩
  | 1 => ⟨S40000x256, .f32⟩
  | 2 => ⟨S40000x256, .f32⟩
  | 3 => ⟨S40000x256, .f32⟩
  | 4 => ⟨S_, .f32⟩
  | 5 => ⟨S40000x256, .f32⟩
  | 6 => ⟨S40000x256, .f32⟩
  | 7 => ⟨S1x256x256, .f32⟩
  | 8 => ⟨S256x256, .f32⟩
  | 9 => ⟨S1x256, .f32⟩
  | 10 => ⟨S256, .f32⟩
  | 11 => ⟨S1x256x256, .f32⟩
  | 12 => ⟨S256x256, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x256, .f32⟩
  | 22 => ⟨S_, .f32⟩
  | 23 => ⟨S40000x256, .f32⟩
  | 24 => ⟨S640000x1, .i32⟩
  | 25 => ⟨S40000x256, .f32⟩
  | 26 => ⟨S40000x256, .f32⟩
  | 27 => ⟨S1x256, .f32⟩
  | 28 => ⟨S40000x256, .f32⟩
  | 29 => ⟨S40000x256, .f32⟩
  | 30 => ⟨S40000x256, .f32⟩
  | 31 => ⟨S40000x256, .f32⟩
  | 32 => ⟨S_, .f32⟩
  | 33 => ⟨S40000x256, .f32⟩
  | 34 => ⟨S40000x256, .f32⟩
  | 35 => ⟨S1x256x256, .f32⟩
  | 36 => ⟨S256x256, .f32⟩
  | 37 => ⟨S1x256, .f32⟩
  | 38 => ⟨S256, .f32⟩
  | 39 => ⟨S1x256x256, .f32⟩
  | 40 => ⟨S256x256, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x256, .f32⟩
  | 50 => ⟨S_, .f32⟩
  | 51 => ⟨S40000x256, .f32⟩
  | 52 => ⟨S640000x1, .i32⟩
  | 53 => ⟨S40000x256, .f32⟩
  | 54 => ⟨S40000x256, .f32⟩
  | 55 => ⟨S1x256, .f32⟩
  | 56 => ⟨S40000x256, .f32⟩
  | 57 => ⟨S40000x256, .f32⟩
  | 58 => ⟨S40000x256, .f32⟩
  | 59 => ⟨S40000x256, .f32⟩
  | 60 => ⟨S_, .f32⟩
  | 61 => ⟨S40000x256, .f32⟩
  | 62 => ⟨S40000x256, .f32⟩
  | 63 => ⟨S_, .f32⟩
  | 64 => ⟨S128x256, .f32⟩
  | 65 => ⟨S40000x1, .i32⟩
  | 66 => ⟨S128x256, .f32⟩
  | 67 => ⟨S128x512, .f32⟩
  | 68 => ⟨S1x512, .f32⟩
  | 69 => ⟨S128x512, .f32⟩
  | 70 => ⟨S128x512, .f32⟩
  | 71 => ⟨S_, .f32⟩
  | 72 => ⟨S128x512, .f32⟩
  | 73 => ⟨S128x512, .f32⟩
  | 74 => ⟨S1x512x512, .f32⟩
  | 75 => ⟨S512x512, .f32⟩
  | 76 => ⟨S128x512, .f32⟩
  | 77 => ⟨S1x512, .f32⟩
  | 78 => ⟨S512, .f32⟩
  | 79 => ⟨S1x512, .f32⟩
  | 80 => ⟨S128x512, .f32⟩
  | 81 => ⟨S128x512, .f32⟩
  | 82 => ⟨S_, .f32⟩
  | 83 => ⟨S128x512, .f32⟩
  | 84 => ⟨S128x512, .f32⟩
  | 85 => ⟨S1x512x512, .f32⟩
  | 86 => ⟨S512x512, .f32⟩
  | 87 => ⟨S128x512, .f32⟩
  | 88 => ⟨S1x512, .f32⟩
  | 89 => ⟨S512, .f32⟩
  | 90 => ⟨S1x512, .f32⟩
  | 91 => ⟨S128x512, .f32⟩
  | 92 => ⟨S128x512, .f32⟩
  | 93 => ⟨S_, .f32⟩
  | 94 => ⟨S128x512, .f32⟩
  | 95 => ⟨S128x512, .f32⟩
  | 96 => ⟨S128x1, .f32⟩
  | 97 => ⟨S1x1, .f32⟩
  | 98 => ⟨S128x1, .f32⟩
  | 99 => ⟨S128x1, .f32⟩
  | _ => ⟨S40000, .i32⟩

abbrev hbmTy (i : Nat) : BufTy := match i / 128 with
  | 0 => hbmTy0_0 i
  | 1 => hbmTy0_1 i
  | _ => ⟨S40000, .i32⟩

abbrev bufTy : (tb : Table) → Fin (tcTables nBuf tb) → BufTy
  | .hbm, ⟨i, _⟩ => hbmTy i
  | _, _ => ⟨S40000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call0_cst : Ref sig .tc := ⟨.hbm, 48, rfl⟩
abbrev main_call0_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_6 : Ref sig .tc := ⟨.hbm, 85, rfl⟩
abbrev main_v57 : Ref sig .tc := ⟨.hbm, 86, rfl⟩
abbrev main_v58 : Ref sig .tc := ⟨.hbm, 87, rfl⟩
abbrev main_c_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call2_cst : Ref sig .tc := ⟨.hbm, 104, rfl⟩
abbrev main_call2_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_9 : Ref sig .tc := ⟨.hbm, 113, rfl⟩
abbrev main_v80 : Ref sig .tc := ⟨.hbm, 114, rfl⟩
abbrev main_v81 : Ref sig .tc := ⟨.hbm, 115, rfl⟩
abbrev main_c_10 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call3_cst : Ref sig .tc := ⟨.hbm, 132, rfl⟩
abbrev main_call3_v0 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_12 : Ref sig .tc := ⟨.hbm, 141, rfl⟩
abbrev main_v103 : Ref sig .tc := ⟨.hbm, 142, rfl⟩
abbrev main_v104 : Ref sig .tc := ⟨.hbm, 143, rfl⟩
abbrev main_c_13 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_14 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call4_cst : Ref sig .tc := ⟨.hbm, 160, rfl⟩
abbrev main_call4_v0 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_15 : Ref sig .tc := ⟨.hbm, 169, rfl⟩
abbrev main_v126 : Ref sig .tc := ⟨.hbm, 170, rfl⟩
abbrev main_v127 : Ref sig .tc := ⟨.hbm, 171, rfl⟩
abbrev main_c_16 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_17 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_call5_cst : Ref sig .tc := ⟨.hbm, 188, rfl⟩
abbrev main_call5_v0 : Ref sig .tc := ⟨.hbm, 189, rfl⟩
abbrev main_v142 : Ref sig .tc := ⟨.hbm, 190, rfl⟩
abbrev main_cst_18 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_call6_cst : Ref sig .tc := ⟨.hbm, 199, rfl⟩
abbrev main_call6_v0 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_call7_cst : Ref sig .tc := ⟨.hbm, 210, rfl⟩
abbrev main_call7_v0 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_call8_cst : Ref sig .tc := ⟨.hbm, 221, rfl⟩
abbrev main_call8_v0 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x64 : S_.BroadcastsInDim S40000x64 (![] : Fin 0 → Fin S40000x64.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  bcast_S_S128x256 : S_.BroadcastsInDim S128x256 (![] : Fin 0 → Fin S128x256.rank)
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  slices_S2x512x512_S1x512x512_1_0_0 : S2x512x512.Slices ![1, 0, 0] S1x512x512
  slices_S2x512_S1x512_1_0 : S2x512.Slices ![1, 0] S1x512
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  gather_S10000x64_S40000x1_S40000x64_1_0_n_n_0_1_164_wf : GatherDims.WF S10000x64 S40000x1 S40000x64 [1] [0] [] [0] [] 1 ![1, 64]
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x256_S40000x256_1_0_0_1_n_n_wf : DotDims.WF S40000x64 S64x256 S40000x256 [1] [0] [0] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S40000x256_S256x256_S40000x256_1_0_0_1_n_n_wf : DotDims.WF S40000x256 S256x256 S40000x256 [1] [0] [0] [1] [] []
  scatter_S128x256_S40000x1_S40000x256_1_0_0_1_wf : ScatterDims.WF S128x256 S40000x1 S40000x256 [1] [0] [0] 1
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  dot_S128x512_S512x1_S128x1_1_0_0_1_n_n_wf : DotDims.WF S128x512 S512x1 S128x1 [1] [0] [0] [1] [] []

variable [Facts₀]

def gather_S10000x64_S40000x1_S40000x64_1_0_n_n_0_1_164 : GatherDims S10000x64 S40000x1 S40000x64 where
  offsetDims := [1]
  collapsedSliceDims := [0]
  operandBatchingDims := []
  startIndicesBatchingDims := []
  startIndexMap := [0]
  indexVectorDim := 1
  sliceSizes := ![1, 64]
  wf := gather_S10000x64_S40000x1_S40000x64_1_0_n_n_0_1_164_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x256_S40000x256_1_0_0_1_n_n : DotDims S40000x64 S64x256 S40000x256 where
  lhsContracting := [1]
  rhsContracting := [0]
  lhsNonContracting := [0]
  rhsNonContracting := [1]
  lhsBatch := []
  rhsBatch := []
  wf := dot_S40000x64_S64x256_S40000x256_1_0_0_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S128x256_S40000x1_S40000x256_1_0_0_1 : ScatterDims S128x256 S40000x1 S40000x256 where
  updateWindowDims := [1]
  insertedWindowDims := [0]
  scatterDimsToOperandDims := [0]
  indexVectorDim := 1
  wf := scatter_S128x256_S40000x1_S40000x256_1_0_0_1_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

class Facts : Prop extends Facts₀ where

variable [Facts]
-- ==== Proof.RunValue.lean ====
/-
  THE IDEALIZED KERNEL'S RUN WITH EVERY BUFFER'S FINAL CONTENTS NAMED.

  The program is seven kernel launches among stretches of host operations. Its generated frame certificate folds the
  buffer contents through the fourteen segments (`Gen.W0` … `Gen.W14`) and keeps, of the final contents, only that the
  arguments are as launched. Here the same run is stated with the whole final valuation: every weakly fair execution
  terminates, nothing faults, and each unscoped buffer ends at `Gen.W14` — in particular the result array, whose value
  the later modules read back through the fold.
-/
import proofs.«164607_j60988535603354_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every device ends
    at the last boundary's contents `Gen.W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run, keeping the result array and the arguments: the result ends at `Gen.W14`'s contents of its buffer,
    each argument as launched. -/
theorem run_result : θ_run defs (onTc (τ := τ) (main (F := F))) ⟨m, fun _ => 0, ρ⟩ (fun r => ∀ c : Dev nD,
      r.2.mem ((c.tc : Thread nD τ).loc main_v119) = W14 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v119 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c),
     (h c _ (mem_uc main_arg15 (by decide))).trans (W14_main_arg15 m ρ c)⟩)
    (run_all m ρ)

end Cert.KernelIdeal.RunValue

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibReluLayer.lean ====
/-
  ONE DENSE LAYER WITH A RECTIFIER, AS A FUNCTION OF ITS INDEX, generic in the three extents.

  For a row operand x of shape [A, K], a matrix w of shape [K, B] and a bias row b of shape [1, B], the layer
      layer x w b (r, c) = max ((sum over k of x (r, k) · w (k, c)) + b (0, c)) 0
  is what, at the ideal values (every float operation exact, rounding between formats the identity),

  * a kernel computes by a matmul of the operands (rounded to bf16) into the zero accumulator, an addition of the
    bias row broadcast to every row, and a maximum with the zero splat              (`kernel_eq`);
  * the host computes by a dot_general, an addition of the bias row broadcast in dimensions [0, 1] and a maximum
    with the rank-0 zero broadcast to the result's shape                            (`host_eq`).

  The layer at an index reads only one row of x, one column of w and one entry of b (`layer_congr`), so a block of
  rows of the layer's result is the layer of the same block of rows of x.

  Nothing here depends on a program.
-/
import Idealize.ShloMosaic.Lib.ValueIdx
import Idealize.ShloMosaic.Lib.Pipeline.Value
import Idealize.ShloMosaic.PureOps.Ideal.Laws
import proofs.«164607_j60988535603354_1_alg».proof.Proof.LibPlainDot

noncomputable section

open scoped BigOperators

namespace Cert.Lib.ReluLayer

open Idealize.ShloMosaic Idealize.ShloMosaic.ValueIdx Cert.Lib.PlainDot

variable {A A' K B : Nat}

/-- The layer at the output index (r, c): the rectified sum of the products along row r of `x` and column c of `w`,
    plus the bias at column c. -/
def layer (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => max ((∑ k : Fin K, x (ix2 (j 0) k) * w (ix2 k (j 1))) + b (ix2 0 (j 1))) 0

/-- The layer at an index depends on one row of the row operand, one column of the matrix and one entry of the bias:
    two layers (over row operands of different heights) agree at two indices where those agree. -/
theorem layer_congr (x : (⟨2, ![A, K]⟩ : Shape).Idx → EReal) (x' : (⟨2, ![A', K]⟩ : Shape).Idx → EReal)
    (w w' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (hx : ∀ k, x (ix2 (j 0) k) = x' (ix2 (i 0) k)) (hw : ∀ k, w (ix2 k (j 1)) = w' (ix2 k (i 1)))
    (hb : b (ix2 0 (j 1)) = b' (ix2 0 (i 1))) : layer x w b j = layer x' w' b' i := by
  unfold layer
  rw [hb]
  refine congrArg (fun s => max (s + b' (ix2 0 (i 1))) 0) (Finset.sum_congr rfl fun k _ => ?_)
  rw [hx k, hw k]

/-- The kernel's spelling: matmul of the operands rounded to bf16 into the zero accumulator, plus the bias row
    broadcast to every row, maximum with the zero splat. -/
theorem kernel_eq (hB : B ≠ 1) (x : FVec Ideal ⟨2, ![A, K]⟩ .f32) (w : FVec Ideal ⟨2, ![K, B]⟩ .f32)
    (b : FVec Ideal ⟨2, ![1, B]⟩ .f32) (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 x h1) (truncf .bf16 w h2)
          (constant ⟨2, ![A, B]⟩ .f32 0x00000000#32)) (broadcastTo ⟨2, ![A, B]⟩ b hbc))
        (broadcast ⟨2, ![A, B]⟩ (Scalar.ofBits (F := Ideal) .f32 0x00000000#32))
      = layer x w b := by
  funext j
  rw [maximumf_apply, addf_apply, matmul_zero_plain_apply, broadcast_apply]
  rw [broadcastTo_apply b hbc j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  show max _ (Ideal.ofBits .f32 0x00000000#32) = _
  rw [Ideal.ofBits_zero_f32]
  rfl

/-- The host's spelling: dot_general of the operands, plus the bias row broadcast in dimensions [0, 1], maximum with
    the rank-0 zero broadcast to the result's shape. -/
theorem host_eq (hB : B ≠ 1) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none x w) (broadcastInDim ⟨2, ![A, B]⟩ ![0, 1] hb b))
        (broadcastInDim ⟨2, ![A, B]⟩ ![] h0 (constant (F := Ideal) ⟨0, ![]⟩ .f32 0x00000000#32))
      = layer x w b := by
  funext j
  rw [maximumf_apply, addf_apply, dotGeneral_plain_apply]
  rw [broadcastInDim_apply ![0, 1] hb b j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  rw [broadcastInDim_apply ![] h0 _ j ix0 (fun a => a.elim0), constant_apply, Ideal.ofBits_zero_f32]
  rfl

end Cert.Lib.ReluLayer

end
-- ==== Proof.LibConvLayer.lean ====
/-
  A GRAPH-CONVOLUTION LAYER'S DENSE STAGE, AS A FUNCTION OF ITS INDEX, generic in the three extents.

  For two row operands a (the aggregated neighbours) and x (the nodes themselves) of shape [A, K], two matrices w and
  w' of shape [K, B] and a bias row b of shape [1, B], the stage
      conv a x w w' b (r, c) = max (((sum over k of a (r, k) · w (k, c)) + (sum over k of x (r, k) · w' (k, c))) + b (0, c)) 0
  is what, at the ideal values (every float operation exact, rounding between formats the identity),

  * a kernel computes by two matmuls of the operands (rounded to bf16) into zero accumulators, their sum, an addition
    of the bias row broadcast to every row, and a maximum with the zero splat             (`kernel_eq`);
  * the host computes by a dot_general, an addition of the bias row broadcast in dimensions [0, 1], an addition of
    the second dot_general, and a maximum with the rank-0 zero broadcast to the result's shape (`host_eq`):
    the two differ in the order of the three summands, and addition on the extended reals is commutative and
    associative, infinities included.

  The stage at an index reads only one row of a and of x, one column of w and of w' and one entry of b
  (`conv_congr`), so a block of rows of the result is the stage of the same block of rows of a and x.

  The last stage of a perceptron head, without a rectifier,
      affine x w b (r, c) = (sum over k of x (r, k) · w (k, c)) + b (0, c),
  has the same two spellings (`affine_kernel_eq`, `affine_host_eq`), for any width B, one included.

  Nothing here depends on a program.
-/
import Idealize.ShloMosaic.Lib.ValueIdx
import Idealize.ShloMosaic.Lib.Pipeline.Value
import Idealize.ShloMosaic.PureOps.Ideal.Laws
import proofs.«164607_j60988535603354_1_alg».proof.Proof.LibPlainDot

noncomputable section

open scoped BigOperators

namespace Cert.Lib.ConvLayer

open Idealize.ShloMosaic Idealize.ShloMosaic.ValueIdx Cert.Lib.PlainDot

variable {A A' K B : Nat}

/-- The stage at the output index (r, c). -/
def conv (a x : (⟨2, ![A, K]⟩ : Shape).Idx → EReal) (w w' : (⟨2, ![K, B]⟩ : Shape).Idx → EReal)
    (b : (⟨2, ![1, B]⟩ : Shape).Idx → EReal) : (⟨2, ![A, B]⟩ : Shape).Idx → EReal :=
  fun j => max (((∑ k : Fin K, a (ix2 (j 0) k) * w (ix2 k (j 1))) + (∑ k : Fin K, x (ix2 (j 0) k) * w' (ix2 k (j 1))))
    + b (ix2 0 (j 1))) 0

/-- The stage at an index depends on one row of each row operand, one column of each matrix and one entry of the
    bias: two stages (over row operands of different heights) agree at two indices where those agree. -/
theorem conv_congr (a x : (⟨2, ![A, K]⟩ : Shape).Idx → EReal) (a' x' : (⟨2, ![A', K]⟩ : Shape).Idx → EReal)
    (w w' v v' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (ha : ∀ k, a (ix2 (j 0) k) = a' (ix2 (i 0) k)) (hx : ∀ k, x (ix2 (j 0) k) = x' (ix2 (i 0) k))
    (hw : ∀ k, w (ix2 k (j 1)) = v (ix2 k (i 1))) (hw' : ∀ k, w' (ix2 k (j 1)) = v' (ix2 k (i 1)))
    (hb : b (ix2 0 (j 1)) = b' (ix2 0 (i 1))) : conv a x w w' b j = conv a' x' v v' b' i := by
  unfold conv
  rw [hb, Finset.sum_congr rfl fun k _ => congrArg₂ (· * ·) (ha k) (hw k),
    Finset.sum_congr rfl fun k _ => congrArg₂ (· * ·) (hx k) (hw' k)]

/-- A bias row [1, B] broadcast to every row of [A, B], read at an index: the entry of its column (any B, one
    included: then the column is 0 on both sides). -/
theorem bias_row_apply (b : FVec Ideal ⟨2, ![1, B]⟩ .f32) (hbc : (⟨2, ![1, B]⟩ : Shape).Broadcasts ⟨2, ![A, B]⟩)
    (j : (⟨2, ![A, B]⟩ : Shape).Idx) : broadcastTo ⟨2, ![A, B]⟩ b hbc j = b (ix2 0 (j 1)) :=
  broadcastTo_apply b hbc j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The same for the host's broadcast in dimensions [0, 1]. -/
theorem bias_row_inDim_apply (b : FVec Ideal ⟨2, ![1, B]⟩ .f32)
    (hb : (⟨2, ![1, B]⟩ : Shape).BroadcastsInDim ⟨2, ![A, B]⟩ (![0, 1] : Fin 2 → Fin 2))
    (j : (⟨2, ![A, B]⟩ : Shape).Idx) : broadcastInDim ⟨2, ![A, B]⟩ ![0, 1] hb b j = b (ix2 0 (j 1)) :=
  broadcastInDim_apply ![0, 1] hb b j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The kernel's spelling of the stage. -/
theorem kernel_eq (a x : FVec Ideal ⟨2, ![A, K]⟩ .f32) (w w' : FVec Ideal ⟨2, ![K, B]⟩ .f32)
    (b : FVec Ideal ⟨2, ![1, B]⟩ .f32) (h1 h2 h3 h4 : FTy.bf16.bits < FTy.f32.bits)
    (hbc : (⟨2, ![1, B]⟩ : Shape).Broadcasts ⟨2, ![A, B]⟩) :
    maximumf (addf (addf
          (matmul (DotDims.plain A K B) none (truncf .bf16 a h1) (truncf .bf16 w h2)
            (constant ⟨2, ![A, B]⟩ .f32 0x00000000#32))
          (matmul (DotDims.plain A K B) none (truncf .bf16 x h3) (truncf .bf16 w' h4)
            (constant ⟨2, ![A, B]⟩ .f32 0x00000000#32)))
          (broadcastTo ⟨2, ![A, B]⟩ b hbc))
        (broadcast ⟨2, ![A, B]⟩ (Scalar.ofBits (F := Ideal) .f32 0x00000000#32))
      = conv a x w w' b := by
  funext j
  rw [maximumf_apply, addf_apply, addf_apply, matmul_zero_plain_apply, matmul_zero_plain_apply, broadcast_apply,
    bias_row_apply]
  show max _ (Ideal.ofBits .f32 0x00000000#32) = _
  rw [Ideal.ofBits_zero_f32]
  rfl

/-- The host's spelling of the stage: the bias is added before the second product. -/
theorem host_eq (a x : FVec Ideal ⟨2, ![A, K]⟩ .f32) (w w' : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (addf (Host.dotGeneral (DotDims.plain A K B) none a w) (broadcastInDim ⟨2, ![A, B]⟩ ![0, 1] hb b))
          (Host.dotGeneral (DotDims.plain A K B) none x w'))
        (broadcastInDim ⟨2, ![A, B]⟩ ![] h0 (constant (F := Ideal) ⟨0, ![]⟩ .f32 0x00000000#32))
      = conv a x w w' b := by
  funext j
  rw [maximumf_apply, addf_apply, addf_apply, dotGeneral_plain_apply, dotGeneral_plain_apply, bias_row_inDim_apply]
  rw [broadcastInDim_apply ![] h0 _ j ix0 (fun a => a.elim0), constant_apply, Ideal.ofBits_zero_f32]
  unfold conv
  exact congrArg (fun s : EReal => max s 0) (add_right_comm _ _ _)

/-- The last stage of the head, without a rectifier, at the output index (r, c). -/
def affine (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => (∑ k : Fin K, x (ix2 (j 0) k) * w (ix2 k (j 1))) + b (ix2 0 (j 1))

/-- The kernel's spelling of the last stage. -/
theorem affine_kernel_eq (x : FVec Ideal ⟨2, ![A, K]⟩ .f32) (w : FVec Ideal ⟨2, ![K, B]⟩ .f32)
    (b : FVec Ideal ⟨2, ![1, B]⟩ .f32) (h1 h2 : FTy.bf16.bits < FTy.f32.bits)
    (hbc : (⟨2, ![1, B]⟩ : Shape).Broadcasts ⟨2, ![A, B]⟩) :
    addf (matmul (DotDims.plain A K B) none (truncf .bf16 x h1) (truncf .bf16 w h2)
          (constant ⟨2, ![A, B]⟩ .f32 0x00000000#32)) (broadcastTo ⟨2, ![A, B]⟩ b hbc)
      = affine x w b := by
  funext j
  rw [addf_apply, matmul_zero_plain_apply, bias_row_apply]
  rfl

/-- The host's spelling of the last stage. -/
theorem affine_host_eq (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) :
    addf (Host.dotGeneral (DotDims.plain A K B) none x w) (broadcastInDim ⟨2, ![A, B]⟩ ![0, 1] hb b)
      = affine x w b := by
  funext j
  rw [addf_apply, dotGeneral_plain_apply, bias_row_inDim_apply]
  rfl

end Cert.Lib.ConvLayer

end
-- ==== Proof.LibHead.lean ====
/-
  A PERCEPTRON HEAD OVER STACKED WEIGHTS, AS A FUNCTION OF ITS INDEX, generic in the extents.

  * `mat ws l` — matrix l of a stack of matrices [L, C, H]; `row bs l` — row l of a stack of bias rows [L, 1, H];
    `stackRows b` — a table [L, H] of biases as that stack of rows.
  * `head2 g w0 b0 ws bs wo bo` — a first rectified dense layer [G, C] → [G, H], two more rectified layers [G, H] → [G, H]
    whose weights are the two matrices of a stack and whose biases the two rows of a stack, and a last layer
    [G, H] → [G, 1] without a rectifier: the layers are `Cert.Lib.ReluLayer.layer` and `Cert.Lib.ConvLayer.affine`.
  * `rowCast_eq_inDim` — a vector [B] recast as the row [1, B] is the vector broadcast in dimension 1: the two ways
    a program makes a bias row of a bias vector.

  Nothing here depends on a program.
-/
import Idealize.ShloMosaic.Lib.ValueIdx
import Idealize.ShloMosaic.Lib.Pipeline.Value
import Idealize.ShloMosaic.PureOps.Ideal.Laws
import proofs.«164607_j60988535603354_1_alg».proof.Proof.LibReluLayer
import proofs.«164607_j60988535603354_1_alg».proof.Proof.LibConvLayer

noncomputable section

open scoped BigOperators

namespace Cert.Lib.Head

open Idealize.ShloMosaic Idealize.ShloMosaic.ValueIdx Cert.Lib.ReluLayer Cert.Lib.ConvLayer

variable {G C H L B : Nat} {α : Type}

/-- Matrix `l` of a stack of `L` matrices. -/
def mat (ws : (⟨3, ![L, C, H]⟩ : Shape).Idx → α) (l : Fin L) : (⟨2, ![C, H]⟩ : Shape).Idx → α :=
  fun j => ws (ix3 l (j 0) (j 1))

/-- Row `l` of a stack of `L` bias rows. -/
def row (bs : (⟨3, ![L, 1, H]⟩ : Shape).Idx → α) (l : Fin L) : (⟨2, ![1, H]⟩ : Shape).Idx → α :=
  fun j => bs (ix3 l 0 (j 1))

/-- A table [L, H] of biases as a stack of `L` rows [1, H]. -/
def stackRows (b : (⟨2, ![L, H]⟩ : Shape).Idx → α) : (⟨3, ![L, 1, H]⟩ : Shape).Idx → α :=
  fun j => b (ix2 (j 0) (j 2))

/-- The head: three rectified dense layers and a last one without a rectifier. -/
def head2 (g : (⟨2, ![G, C]⟩ : Shape).Idx → EReal) (w0 : (⟨2, ![C, H]⟩ : Shape).Idx → EReal)
    (b0 : (⟨2, ![1, H]⟩ : Shape).Idx → EReal) (ws : (⟨3, ![2, H, H]⟩ : Shape).Idx → EReal)
    (bs : (⟨3, ![2, 1, H]⟩ : Shape).Idx → EReal) (wo : (⟨2, ![H, 1]⟩ : Shape).Idx → EReal)
    (bo : (⟨2, ![1, 1]⟩ : Shape).Idx → EReal) : (⟨2, ![G, 1]⟩ : Shape).Idx → EReal :=
  affine (layer (layer (layer g w0 b0) (mat ws 0) (row bs 0)) (mat ws 1) (row bs 1)) wo bo

/-- A vector [B] recast as the row [1, B] is the vector broadcast in dimension 1. -/
theorem rowCast_eq_inDim (v : (⟨1, ![B]⟩ : Shape).Idx → α) (h : (⟨1, ![B]⟩ : Shape).ShapeCasts ⟨2, ![1, B]⟩)
    (hb : (⟨1, ![B]⟩ : Shape).BroadcastsInDim ⟨2, ![1, B]⟩ (![1] : Fin 1 → Fin 2)) :
    shapeCast ⟨2, ![1, B]⟩ v h = broadcastInDim ⟨2, ![1, B]⟩ ![1] hb v := by
  funext j
  have e1 : shapeCast ⟨2, ![1, B]⟩ v h j = v (ix1 (j 1)) :=
    shapeCast_apply v h j (ix1 (j 1)) (by
      have h0 : (j 0).val = 0 := by have hlt : (j 0).val < 1 := (j 0).isLt; omega
      rw [Shape.rowMajor_val_one, Shape.rowMajor_val_two]
      show (j 1).val = (j 0).val * B + (j 1).val
      rw [h0]; omega)
  have e2 : broadcastInDim ⟨2, ![1, B]⟩ ![1] hb v j = v (ix1 (j 1)) :=
    broadcastInDim_apply ![1] hb v j (ix1 (j 1)) (fun a => by
      match a with
      | ⟨0, _⟩ =>
        show (j 1).val = if B = 1 then 0 else (j 1).val
        split
        · rename_i hB; have hlt : (j 1).val < B := (j 1).isLt; omega
        · rfl)
  rw [e1, e2]

end Cert.Lib.Head

end
-- ==== Proof.Net.lean ====
/-
  THE NETWORK AS ONE FUNCTION OF THE SIXTEEN ARGUMENT ARRAYS.

  Both programs compute, at the ideal values, the same stack: the node features x0 are rows of an embedding table
  picked by the node indices; six times, every node's features become
      max (((sum of its in-neighbours' features) · w_rel + (its own features) · w_root) + b_rel) 0
  (the neighbour sum is a sum over the edges into the node: a gather of the source rows, scatter-added at the
  destination rows); the nodes' features are then summed per graph and pass through a perceptron head. The index
  plumbing (picking the two rows of the edge table, wrapping negative indices, the gathers and the scatter-adds, the
  slices of the stacked weights) is host code in both programs, the same operations on the same arguments; it is
  named here once, by the reference's own stages, and never opened. What differs between the programs is the dense
  stage of a layer, which one of them runs in a kernel, and the head.
-/
import proofs.«164607_j60988535603354_1_alg».proof.Proof.Gen.ReferenceIdeal.Read
import proofs.«164607_j60988535603354_1_alg».proof.Proof.LibHead

noncomputable section

namespace Cert.Net

open Idealize.ShloMosaic Cert.ReferenceIdeal Cert.ReferenceIdeal.Read
open Cert.Lib.ConvLayer Cert.Lib.ReluLayer Cert.Lib.Head

/-- The sixteen argument arrays, in the order of the programs' parameters. -/
structure Args where
  a0 : (⟨S40000, .i32⟩ : BufTy).Contents (Elt Ideal)
  a1 : (⟨S2x640000, .i32⟩ : BufTy).Contents (Elt Ideal)
  a2 : (⟨S40000, .i32⟩ : BufTy).Contents (Elt Ideal)
  a3 : (⟨S10000x64, .f32⟩ : BufTy).Contents (Elt Ideal)
  a4 : (⟨S64x256, .f32⟩ : BufTy).Contents (Elt Ideal)
  a5 : (⟨S256, .f32⟩ : BufTy).Contents (Elt Ideal)
  a6 : (⟨S64x256, .f32⟩ : BufTy).Contents (Elt Ideal)
  a7 : (⟨S5x256x256, .f32⟩ : BufTy).Contents (Elt Ideal)
  a8 : (⟨S5x256, .f32⟩ : BufTy).Contents (Elt Ideal)
  a9 : (⟨S5x256x256, .f32⟩ : BufTy).Contents (Elt Ideal)
  a10 : (⟨S256x512, .f32⟩ : BufTy).Contents (Elt Ideal)
  a11 : (⟨S512, .f32⟩ : BufTy).Contents (Elt Ideal)
  a12 : (⟨S2x512x512, .f32⟩ : BufTy).Contents (Elt Ideal)
  a13 : (⟨S2x512, .f32⟩ : BufTy).Contents (Elt Ideal)
  a14 : (⟨S512x1, .f32⟩ : BufTy).Contents (Elt Ideal)
  a15 : (⟨S1, .f32⟩ : BufTy).Contents (Elt Ideal)

/-- The neighbour sum of 64-wide node features `x` along the edges `e`: row d of the result is the sum, over the
    edges into d, of the source node's row. -/
def agg64 (x : (⟨S40000x64, .f32⟩ : BufTy).Contents (Elt Ideal)) (e : (⟨S2x640000, .i32⟩ : BufTy).Contents (Elt Ideal)) : (⟨S40000x64, .f32⟩ : BufTy).Contents (Elt Ideal) :=
  Host.scatterAdd (F := Ideal) (φ := .f32) scatter_S40000x64_S640000x1_S640000x64_1_0_0_1 (val_main_v18 (F := Ideal)) (val_main_v19 (F := Ideal) e)
    (Host.gather gather_S40000x64_S640000x1_S640000x64_1_0_n_n_0_1_164 x (val_main_v16 (F := Ideal) e))

/-- The neighbour sum of 256-wide node features. -/
def agg256 (x : (⟨S40000x256, .f32⟩ : BufTy).Contents (Elt Ideal)) (e : (⟨S2x640000, .i32⟩ : BufTy).Contents (Elt Ideal)) : (⟨S40000x256, .f32⟩ : BufTy).Contents (Elt Ideal) :=
  Host.scatterAdd (F := Ideal) (φ := .f32) scatter_S40000x256_S640000x1_S640000x256_1_0_0_1 (val_main_v41 (F := Ideal)) (val_main_v42 (F := Ideal) e)
    (Host.gather gather_S40000x256_S640000x1_S640000x256_1_0_n_n_0_1_1256 x (val_main_v39 (F := Ideal) e))

/-- The per-graph sum of the node features: row g of the result is the sum of the rows of the nodes of graph g. -/
def pool (x : (⟨S40000x256, .f32⟩ : BufTy).Contents (Elt Ideal)) (bt : (⟨S40000, .i32⟩ : BufTy).Contents (Elt Ideal)) : (⟨S128x256, .f32⟩ : BufTy).Contents (Elt Ideal) :=
  Host.scatterAdd (F := Ideal) (φ := .f32) scatter_S128x256_S40000x1_S40000x256_1_0_0_1 (val_main_v143 (F := Ideal)) (val_main_v144 (F := Ideal) bt) x

/-- The embedded node features. -/
def x0 (A : Args) : (⟨S40000x64, .f32⟩ : BufTy).Contents (Elt Ideal) := (val_main_v10 (F := Ideal) A.a0 A.a3)
/-- The node features after the first layer (64 → 256). -/
def x1 (A : Args) : (⟨S40000x256, .f32⟩ : BufTy).Contents (Elt Ideal) := conv (agg64 (x0 A) A.a1) (x0 A) A.a4 A.a6 (val_main_v22 (F := Ideal) A.a5)
/-- After the five stacked layers (256 → 256), with slice i of the stacked weights. -/
def x2 (A : Args) : (⟨S40000x256, .f32⟩ : BufTy).Contents (Elt Ideal) := conv (agg256 (x1 A) A.a1) (x1 A) (val_main_v29 (F := Ideal) A.a7) (val_main_v33 (F := Ideal) A.a9) (val_main_v45 (F := Ideal) A.a8)
def x3 (A : Args) : (⟨S40000x256, .f32⟩ : BufTy).Contents (Elt Ideal) := conv (agg256 (x2 A) A.a1) (x2 A) (val_main_v52 (F := Ideal) A.a7) (val_main_v56 (F := Ideal) A.a9) (val_main_v68 (F := Ideal) A.a8)
def x4 (A : Args) : (⟨S40000x256, .f32⟩ : BufTy).Contents (Elt Ideal) := conv (agg256 (x3 A) A.a1) (x3 A) (val_main_v75 (F := Ideal) A.a7) (val_main_v79 (F := Ideal) A.a9) (val_main_v91 (F := Ideal) A.a8)
def x5 (A : Args) : (⟨S40000x256, .f32⟩ : BufTy).Contents (Elt Ideal) := conv (agg256 (x4 A) A.a1) (x4 A) (val_main_v98 (F := Ideal) A.a7) (val_main_v102 (F := Ideal) A.a9) (val_main_v114 (F := Ideal) A.a8)
def x6 (A : Args) : (⟨S40000x256, .f32⟩ : BufTy).Contents (Elt Ideal) := conv (agg256 (x5 A) A.a1) (x5 A) (val_main_v121 (F := Ideal) A.a7) (val_main_v125 (F := Ideal) A.a9) (val_main_v137 (F := Ideal) A.a8)

/-- The network's result: the head of the pooled features. -/
def out (A : Args) : (⟨S128x1, .f32⟩ : BufTy).Contents (Elt Ideal) :=
  head2 (pool (x6 A) A.a2) A.a10 (val_main_v147 (F := Ideal) A.a11) A.a12 (stackRows A.a13) A.a14 (val_main_v170 (F := Ideal) A.a15)

end Cert.Net

end
-- ==== Proof.RefNet.lean ====
/-
  THE REFERENCE PROGRAM COMPUTES THE NETWORK.

  Read at the ideal values, the reference's host operations compose to the function `Cert.Net.out` of the sixteen
  argument arrays. The proof follows the program's own order, one statement per layer:

  * the embedded features and the first layer (64 → 256): the neighbour sum times w_rel, plus the bias row, plus the
    features times w_root, rectified. The reference adds its three summands in the order
        (a · w_rel + b) + x · w_root,
    the network is written ((a · w_rel) + (x · w_root)) + b; the two agree because addition of extended reals is
    commutative and associative;
  * the five stacked layers (256 → 256), each the same dense stage over the previous layer's features, with slice i of
    the stacked weights. For each of them the reference writes out again the wrapped source endpoints, the
    destination endpoints and the zero array the neighbour sum starts from; these are the same expressions of the edge
    table under new names, so each layer's neighbour sum is the one the network names;
  * the per-graph sum of the last layer's features;
  * the head: three rectified dense layers and a last affine one. The second and third take matrix 0 and matrix 1 of
    a stack of two and row 0 and row 1 of a table of two bias rows; a slice of one matrix followed by dropping the
    unit axis reads the stack at (l, r, c), and a slice of one row, flattened and set again as a row, reads the table
    at (l, c).
-/
import proofs.«164607_j60988535603354_1_alg».proof.Proof.Gen.ReferenceIdeal.Read
import proofs.«164607_j60988535603354_1_alg».proof.Proof.Net

noncomputable section

open scoped BigOperators

namespace Cert.RefNet

open Idealize.ShloMosaic Idealize.ShloMosaic.ValueIdx
open Cert.ReferenceIdeal Cert.ReferenceIdeal.Gen Cert.ReferenceIdeal.Read

/-! ## The first layer -/

/-- The first layer's neighbour sum is taken of the embedded features: the gather of the source rows and the
    scatter-add at the destination rows are the ones the network names. -/
theorem agg_embedded (A : Cert.Net.Args) :
    val_main_v20 (F := Ideal) A.a0 A.a1 A.a3 = Cert.Net.agg64 (Cert.Net.x0 A) A.a1 := rfl

/-- The first layer: max (((a · w_rel) + b) + (x · w_root)) 0 with a the neighbour sum of the embedded features x,
    which is the network's max (((a · w_rel) + (x · w_root)) + b) 0. -/
theorem x1_eq (A : Cert.Net.Args) :
    val_main_v27 (F := Ideal) A.a0 A.a1 A.a3 A.a4 A.a5 A.a6 = Cert.Net.x1 A := by
  unfold val_main_v27 val_main_v26 val_main_v24 val_main_v21 val_main_v25 val_main_v23 val_main_call0_v0
    val_main_call0_cst
  rw [agg_embedded A,
    Cert.Lib.PlainDot.eq_plain dot_S40000x64_S64x256_S40000x256_1_0_0_1_n_n rfl rfl rfl rfl rfl rfl]
  exact Cert.Lib.ConvLayer.host_eq (Cert.Net.agg64 (Cert.Net.x0 A) A.a1) (Cert.Net.x0 A) A.a4 A.a6
    (val_main_v22 (F := Ideal) A.a5) bcast_S1x256_S40000x256_0_1 bcast_S_S40000x256

/-! ## The stacked layers -/

/-- One 256-wide layer in the reference's spelling, over any features x, edge table e, matrices w, w' and bias row b:
    max (((a · w) + b) + (x · w')) 0 with a the neighbour sum of x along e. -/
theorem stacked (x : FVec Ideal S40000x256 .f32) (e : (⟨S2x640000, .i32⟩ : BufTy).Contents (Elt Ideal))
    (w w' : FVec Ideal S256x256 .f32) (b : FVec Ideal S1x256 .f32) :
    maximumf (F := Ideal)
        (addf (F := Ideal)
          (addf (F := Ideal)
            (Host.dotGeneral (F := Ideal) (φ₁ := .f32) (φ₂ := .f32) dot_S40000x256_S256x256_S40000x256_1_0_0_1_n_n none
              (Cert.Net.agg256 x e) w)
            (broadcastInDim S40000x256 ![0, 1] bcast_S1x256_S40000x256_0_1 b))
          (Host.dotGeneral (F := Ideal) dot_S40000x256_S256x256_S40000x256_1_0_0_1_n_n none x w'))
        (broadcastInDim S40000x256 ![] bcast_S_S40000x256 (constant (F := Ideal) S_ .f32 0x00000000#32))
      = Cert.Lib.ConvLayer.conv (Cert.Net.agg256 x e) x w w' b := by
  rw [Cert.Lib.PlainDot.eq_plain dot_S40000x256_S256x256_S40000x256_1_0_0_1_n_n rfl rfl rfl rfl rfl rfl]
  exact Cert.Lib.ConvLayer.host_eq (Cert.Net.agg256 x e) x w w' b bcast_S1x256_S40000x256_0_1 bcast_S_S40000x256

/-- The second layer is the dense stage over the previous layer's features. -/
theorem x2_eq (A : Cert.Net.Args) :
    val_main_v50 (F := Ideal) A.a0 A.a1 A.a3 A.a4 A.a5 A.a6 A.a7 A.a8 A.a9 = Cert.Net.x2 A := by
  unfold val_main_v50 val_main_v49 val_main_v47 val_main_v44 val_main_v48 val_main_v46 val_main_call1_v0
    val_main_call1_cst val_main_v43 val_main_v40
  rw [x1_eq A]
  exact stacked (Cert.Net.x1 A) A.a1 _ _ _

/-- The third layer's copy of the edge plumbing is the first copy: the zero array the neighbour sum starts from,
    the destination endpoints, and the source endpoints with negative entries wrapped by the node count. -/
theorem zero_3 : val_main_v64 (F := Ideal) = val_main_v41 (F := Ideal) := rfl
theorem dst_3 (e : (⟨S2x640000, .i32⟩ : BufTy).Contents (Elt Ideal)) :
    val_main_v65 (F := Ideal) e = val_main_v42 (F := Ideal) e := rfl
theorem src_3 (e : (⟨S2x640000, .i32⟩ : BufTy).Contents (Elt Ideal)) :
    val_main_v62 (F := Ideal) e = val_main_v39 (F := Ideal) e := rfl

/-- The third layer is the dense stage over the previous layer's features. -/
theorem x3_eq (A : Cert.Net.Args) :
    val_main_v73 (F := Ideal) A.a0 A.a1 A.a3 A.a4 A.a5 A.a6 A.a7 A.a8 A.a9 = Cert.Net.x3 A := by
  unfold val_main_v73 val_main_v72 val_main_v70 val_main_v67 val_main_v71 val_main_v69 val_main_call2_v0
    val_main_call2_cst val_main_v66 val_main_v63
  rw [x2_eq A, zero_3, dst_3, src_3]
  exact stacked (Cert.Net.x2 A) A.a1 _ _ _

/-- The fourth layer's copy of the edge plumbing is the first copy: the zero array the neighbour sum starts from,
    the destination endpoints, and the source endpoints with negative entries wrapped by the node count. -/
theorem zero_4 : val_main_v87 (F := Ideal) = val_main_v41 (F := Ideal) := rfl
theorem dst_4 (e : (⟨S2x640000, .i32⟩ : BufTy).Contents (Elt Ideal)) :
    val_main_v88 (F := Ideal) e = val_main_v42 (F := Ideal) e := rfl
theorem src_4 (e : (⟨S2x640000, .i32⟩ : BufTy).Contents (Elt Ideal)) :
    val_main_v85 (F := Ideal) e = val_main_v39 (F := Ideal) e := rfl

/-- The fourth layer is the dense stage over the previous layer's features. -/
theorem x4_eq (A : Cert.Net.Args) :
    val_main_v96 (F := Ideal) A.a0 A.a1 A.a3 A.a4 A.a5 A.a6 A.a7 A.a8 A.a9 = Cert.Net.x4 A := by
  unfold val_main_v96 val_main_v95 val_main_v93 val_main_v90 val_main_v94 val_main_v92 val_main_call3_v0
    val_main_call3_cst val_main_v89 val_main_v86
  rw [x3_eq A, zero_4, dst_4, src_4]
  exact stacked (Cert.Net.x3 A) A.a1 _ _ _

/-- The fifth layer's copy of the edge plumbing is the first copy: the zero array the neighbour sum starts from,
    the destination endpoints, and the source endpoints with negative entries wrapped by the node count. -/
theorem zero_5 : val_main_v110 (F := Ideal) = val_main_v41 (F := Ideal) := rfl
theorem dst_5 (e : (⟨S2x640000, .i32⟩ : BufTy).Contents (Elt Ideal)) :
    val_main_v111 (F := Ideal) e = val_main_v42 (F := Ideal) e := rfl
theorem src_5 (e : (⟨S2x640000, .i32⟩ : BufTy).Contents (Elt Ideal)) :
    val_main_v108 (F := Ideal) e = val_main_v39 (F := Ideal) e := rfl

/-- The fifth layer is the dense stage over the previous layer's features. -/
theorem x5_eq (A : Cert.Net.Args) :
    val_main_v119 (F := Ideal) A.a0 A.a1 A.a3 A.a4 A.a5 A.a6 A.a7 A.a8 A.a9 = Cert.Net.x5 A := by
  unfold val_main_v119 val_main_v118 val_main_v116 val_main_v113 val_main_v117 val_main_v115 val_main_call4_v0
    val_main_call4_cst val_main_v112 val_main_v109
  rw [x4_eq A, zero_5, dst_5, src_5]
  exact stacked (Cert.Net.x4 A) A.a1 _ _ _

/-- The sixth layer's copy of the edge plumbing is the first copy: the zero array the neighbour sum starts from,
    the destination endpoints, and the source endpoints with negative entries wrapped by the node count. -/
theorem zero_6 : val_main_v133 (F := Ideal) = val_main_v41 (F := Ideal) := rfl
theorem dst_6 (e : (⟨S2x640000, .i32⟩ : BufTy).Contents (Elt Ideal)) :
    val_main_v134 (F := Ideal) e = val_main_v42 (F := Ideal) e := rfl
theorem src_6 (e : (⟨S2x640000, .i32⟩ : BufTy).Contents (Elt Ideal)) :
    val_main_v131 (F := Ideal) e = val_main_v39 (F := Ideal) e := rfl

/-- The sixth layer is the dense stage over the previous layer's features. -/
theorem x6_eq (A : Cert.Net.Args) :
    val_main_v142 (F := Ideal) A.a0 A.a1 A.a3 A.a4 A.a5 A.a6 A.a7 A.a8 A.a9 = Cert.Net.x6 A := by
  unfold val_main_v142 val_main_v141 val_main_v139 val_main_v136 val_main_v140 val_main_v138 val_main_call5_v0
    val_main_call5_cst val_main_v135 val_main_v132
  rw [x5_eq A, zero_6, dst_6, src_6]
  exact stacked (Cert.Net.x5 A) A.a1 _ _ _

/-! ## The per-graph sum -/

/-- The pooled features: the scatter-add of the last layer's rows at their graphs' rows. -/
theorem pool_eq (A : Cert.Net.Args) :
    val_main_v145 (F := Ideal) A.a0 A.a1 A.a2 A.a3 A.a4 A.a5 A.a6 A.a7 A.a8 A.a9 = Cert.Net.pool (Cert.Net.x6 A) A.a2 := by
  unfold val_main_v145
  rw [x6_eq A]
  rfl

/-! ## The head -/

/-- Matrix 0 of the stack of two: the slice [0:1] of the stack with its unit axis dropped reads the stack at
    (0, r, c), since (r · 512 + c) / 512 mod 512 = r and (r · 512 + c) mod 512 = c for r, c below 512. -/
theorem mat0_eq (ws : (⟨S2x512x512, .f32⟩ : BufTy).Contents (Elt Ideal)) :
    val_main_v152 (F := Ideal) ws = Cert.Lib.Head.mat (L := 2) (C := 512) (H := 512) ws 0 := by
  funext j
  rw [val_main_v152_apply, val_main_v151_apply]
  show ws _ = ws (ix3 (0 : Fin 2) (j 0) (j 1))
  have h0 : (j 0).val < 512 := (j 0).isLt
  have h1 : (j 1).val < 512 := (j 1).isLt
  refine congrArg ws (funext fun a => Fin.ext ?_)
  match a with
  | ⟨0, _⟩ => rfl
  | ⟨1, _⟩ => show ((j 0).val * 512 + (j 1).val) / 512 % 512 = (j 0).val; omega
  | ⟨2, _⟩ => show ((j 0).val * 512 + (j 1).val) % 512 = (j 1).val; omega

/-- Matrix 1 of the stack of two, by the slice [1:2]. -/
theorem mat1_eq (ws : (⟨S2x512x512, .f32⟩ : BufTy).Contents (Elt Ideal)) :
    val_main_v161 (F := Ideal) ws = Cert.Lib.Head.mat (L := 2) (C := 512) (H := 512) ws 1 := by
  funext j
  rw [val_main_v161_apply, val_main_v160_apply]
  show ws _ = ws (ix3 (1 : Fin 2) (j 0) (j 1))
  have h0 : (j 0).val < 512 := (j 0).isLt
  have h1 : (j 1).val < 512 := (j 1).isLt
  refine congrArg ws (funext fun a => Fin.ext ?_)
  match a with
  | ⟨0, _⟩ => rfl
  | ⟨1, _⟩ => show ((j 0).val * 512 + (j 1).val) / 512 % 512 = (j 0).val; omega
  | ⟨2, _⟩ => show ((j 0).val * 512 + (j 1).val) % 512 = (j 1).val; omega

/-- Row 0 of the table of two bias rows: the slice [0:1] of the table, flattened to a vector and set again as a row,
    reads the table at (0, c), since c mod 512 = c for c below 512. -/
theorem row0_eq (bs : (⟨S2x512, .f32⟩ : BufTy).Contents (Elt Ideal)) :
    val_main_v156 (F := Ideal) bs
      = Cert.Lib.Head.row (L := 2) (H := 512) (Cert.Lib.Head.stackRows (L := 2) (H := 512) bs) 0 := by
  funext j
  rw [val_main_v156_apply, val_main_v155_apply, val_main_v154_apply]
  show bs _ = bs (ix2 (0 : Fin 2) (j 1))
  have h1 : (j 1).val < 512 := (j 1).isLt
  refine congrArg bs (funext fun a => Fin.ext ?_)
  match a with
  | ⟨0, _⟩ => rfl
  | ⟨1, _⟩ => show (j 1).val % 512 = (j 1).val; omega

/-- Row 1 of the table of two bias rows, by the slice [1:2]. -/
theorem row1_eq (bs : (⟨S2x512, .f32⟩ : BufTy).Contents (Elt Ideal)) :
    val_main_v165 (F := Ideal) bs
      = Cert.Lib.Head.row (L := 2) (H := 512) (Cert.Lib.Head.stackRows (L := 2) (H := 512) bs) 1 := by
  funext j
  rw [val_main_v165_apply, val_main_v164_apply, val_main_v163_apply]
  show bs _ = bs (ix2 (1 : Fin 2) (j 1))
  have h1 : (j 1).val < 512 := (j 1).isLt
  refine congrArg bs (funext fun a => Fin.ext ?_)
  match a with
  | ⟨0, _⟩ => rfl
  | ⟨1, _⟩ => show (j 1).val % 512 = (j 1).val; omega

/-- The head's first layer (256 → 512) over the pooled features. -/
theorem head1_eq (A : Cert.Net.Args) :
    val_main_v150 (F := Ideal) A.a0 A.a1 A.a2 A.a3 A.a4 A.a5 A.a6 A.a7 A.a8 A.a9 A.a10 A.a11
      = Cert.Lib.ReluLayer.layer (Cert.Net.pool (Cert.Net.x6 A) A.a2) A.a10 (val_main_v147 (F := Ideal) A.a11) := by
  unfold val_main_v150 val_main_v149 val_main_v146 val_main_v148 val_main_call6_v0 val_main_call6_cst
  rw [pool_eq A, Cert.Lib.PlainDot.eq_plain dot_S128x256_S256x512_S128x512_1_0_0_1_n_n rfl rfl rfl rfl rfl rfl]
  exact Cert.Lib.ReluLayer.host_eq (by decide) (Cert.Net.pool (Cert.Net.x6 A) A.a2) A.a10
    (val_main_v147 (F := Ideal) A.a11) bcast_S1x512_S128x512_0_1 bcast_S_S128x512

/-- The head's second layer (512 → 512), with matrix 0 and bias row 0. -/
theorem head2_eq (A : Cert.Net.Args) :
    val_main_v159 (F := Ideal) A.a0 A.a1 A.a2 A.a3 A.a4 A.a5 A.a6 A.a7 A.a8 A.a9 A.a10 A.a11 A.a12 A.a13
      = Cert.Lib.ReluLayer.layer
          (Cert.Lib.ReluLayer.layer (Cert.Net.pool (Cert.Net.x6 A) A.a2) A.a10 (val_main_v147 (F := Ideal) A.a11))
          (Cert.Lib.Head.mat (L := 2) (C := 512) (H := 512) A.a12 0)
          (Cert.Lib.Head.row (L := 2) (H := 512) (Cert.Lib.Head.stackRows (L := 2) (H := 512) A.a13) 0) := by
  unfold val_main_v159 val_main_v158 val_main_v153 val_main_v157 val_main_call7_v0 val_main_call7_cst
  rw [head1_eq A, mat0_eq A.a12, row0_eq A.a13,
    Cert.Lib.PlainDot.eq_plain dot_S128x512_S512x512_S128x512_1_0_0_1_n_n rfl rfl rfl rfl rfl rfl]
  exact Cert.Lib.ReluLayer.host_eq (by decide) _ _ _ bcast_S1x512_S128x512_0_1 bcast_S_S128x512

/-- The head's third layer (512 → 512), with matrix 1 and bias row 1. -/
theorem head3_eq (A : Cert.Net.Args) :
    val_main_v168 (F := Ideal) A.a0 A.a1 A.a2 A.a3 A.a4 A.a5 A.a6 A.a7 A.a8 A.a9 A.a10 A.a11 A.a12 A.a13
      = Cert.Lib.ReluLayer.layer
          (Cert.Lib.ReluLayer.layer
            (Cert.Lib.ReluLayer.layer (Cert.Net.pool (Cert.Net.x6 A) A.a2) A.a10 (val_main_v147 (F := Ideal) A.a11))
            (Cert.Lib.Head.mat (L := 2) (C := 512) (H := 512) A.a12 0)
            (Cert.Lib.Head.row (L := 2) (H := 512) (Cert.Lib.Head.stackRows (L := 2) (H := 512) A.a13) 0))
          (Cert.Lib.Head.mat (L := 2) (C := 512) (H := 512) A.a12 1)
          (Cert.Lib.Head.row (L := 2) (H := 512) (Cert.Lib.Head.stackRows (L := 2) (H := 512) A.a13) 1) := by
  unfold val_main_v168 val_main_v167 val_main_v162 val_main_v166 val_main_call8_v0 val_main_call8_cst
  rw [head2_eq A, mat1_eq A.a12, row1_eq A.a13,
    Cert.Lib.PlainDot.eq_plain dot_S128x512_S512x512_S128x512_1_0_0_1_n_n rfl rfl rfl rfl rfl rfl]
  exact Cert.Lib.ReluLayer.host_eq (by decide) _ _ _ bcast_S1x512_S128x512_0_1 bcast_S_S128x512

/-- The reference's result is the network: the last, affine layer (512 → 1) over the head's third layer. -/
theorem result_eq (A : Cert.Net.Args) :
    val_main_v172 (F := Ideal) A.a0 A.a1 A.a2 A.a3 A.a4 A.a5 A.a6 A.a7 A.a8 A.a9 A.a10 A.a11 A.a12 A.a13 A.a14 A.a15 = Cert.Net.out A := by
  unfold val_main_v172 val_main_v169 val_main_v171
  rw [head3_eq A, Cert.Lib.PlainDot.eq_plain dot_S128x512_S512x1_S128x1_1_0_0_1_n_n rfl rfl rfl rfl rfl rfl]
  exact Cert.Lib.ConvLayer.affine_host_eq _ A.a14 (val_main_v170 (F := Ideal) A.a15) bcast_S1x1_S128x1_0_1

end Cert.RefNet

end
-- ==== Proof.ChainBase.lean ====
/-
  WHAT THE LATER SEGMENTS STILL READ, CARRIED THROUGH THE RUN.

  The idealized kernel program is fourteen segments: a stretch of host operations, then a kernel launch, seven times.
  The first stretch splits the edge table into the source and destination index vectors; every later stretch reads
  those two vectors again (to gather the neighbours' rows and scatter-add them), slices of the stacked weight
  arguments, and — the last one — the graph index vector and the head's biases. No later segment writes any of these
  buffers, so at every boundary after the first launch they hold what they held after the first stretch, or at the
  launch (`Carried`, `carried1` … `carried6`).
-/
import proofs.«164607_j60988535603354_1_alg».proof.Proof.Gen.KernelIdeal.Frame
import proofs.«164607_j60988535603354_1_alg».proof.Proof.Net
import Idealize.ShloMosaic.Lib.StableHlo.Run
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.Head

variable (m : (ℓ : Loc nD τ sig) → Buf (Elt Ideal) ℓ) (ρ : Dev nD → PrngReg)

/-- The sixteen argument arrays as the program is launched on device `c`. -/
def argsOf (c : Dev nD) : Cert.Net.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)

/-- A table [L, H] recast as a stack of rows [L, 1, H] is `stackRows`: entry (l, 0, q) is entry (l, q). -/
theorem stackCast_eq {L H : Nat} {α : Type} (b : (⟨2, ![L, H]⟩ : Shape).Idx → α)
    (h : (⟨2, ![L, H]⟩ : Shape).ShapeCasts ⟨3, ![L, 1, H]⟩) : shapeCast ⟨3, ![L, 1, H]⟩ b h = stackRows b := by
  funext j
  refine shapeCast_apply b h j (ix2 (j 0) (j 2)) ?_
  have h1 : (j 1).val = 0 := by have hlt : (j 1).val < 1 := (j 1).isLt; omega
  rw [Shape.rowMajor_val_two, Shape.rowMajor_val_three]
  show (j 0).val * H + (j 2).val = ((j 0).val * 1 + (j 1).val) * H + (j 2).val
  rw [h1, Nat.mul_one, Nat.add_zero]

/-- The buffers the later segments read, at a boundary's contents `W`: the source and destination index vectors of
    the edges as the first stretch made them, and the arguments as launched. -/
structure Carried (W : Valuation τ sig (Elt Ideal)) (A : Cert.Net.Args) : Prop where
  src : W (Proc.devRef .tc main_v1) = (Cert.ReferenceIdeal.Read.val_main_v1 (F := Ideal) A.a1)
  dst : W (Proc.devRef .tc main_v3) = (Cert.ReferenceIdeal.Read.val_main_v3 (F := Ideal) A.a1)
  a2 : W (Proc.devRef .tc main_arg2) = A.a2
  a7 : W (Proc.devRef .tc main_arg7) = A.a7
  a8 : W (Proc.devRef .tc main_arg8) = A.a8
  a9 : W (Proc.devRef .tc main_arg9) = A.a9
  a10 : W (Proc.devRef .tc main_arg10) = A.a10
  a11 : W (Proc.devRef .tc main_arg11) = A.a11
  a12 : W (Proc.devRef .tc main_arg12) = A.a12
  a13 : W (Proc.devRef .tc main_arg13) = A.a13
  a14 : W (Proc.devRef .tc main_arg14) = A.a14
  a15 : W (Proc.devRef .tc main_arg15) = A.a15

/-- A buffer no operation of a host stretch writes holds after the stretch what it held before. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- After the first launch. -/
theorem carried1 (c : Dev nD) : Carried (W2 m ρ c) (argsOf m c) where
  src := (W2_of_ne m ρ c main_v1 (by decide)).trans (by
    show StableHlo.after hostOps0 (W0 m ρ c) (Proc.devRef .tc main_v1) = _
    after_results
    rfl)
  dst := (W2_of_ne m ρ c main_v3 (by decide)).trans (by
    show StableHlo.after hostOps0 (W0 m ρ c) (Proc.devRef .tc main_v3) = _
    after_results
    rfl)
  a2 := (W2_of_ne m ρ c main_arg2 (by decide)).trans (by host_keep hostOps0)
  a7 := (W2_of_ne m ρ c main_arg7 (by decide)).trans (by host_keep hostOps0)
  a8 := (W2_of_ne m ρ c main_arg8 (by decide)).trans (by host_keep hostOps0)
  a9 := (W2_of_ne m ρ c main_arg9 (by decide)).trans (by host_keep hostOps0)
  a10 := (W2_of_ne m ρ c main_arg10 (by decide)).trans (by host_keep hostOps0)
  a11 := (W2_of_ne m ρ c main_arg11 (by decide)).trans (by host_keep hostOps0)
  a12 := (W2_of_ne m ρ c main_arg12 (by decide)).trans (by host_keep hostOps0)
  a13 := (W2_of_ne m ρ c main_arg13 (by decide)).trans (by host_keep hostOps0)
  a14 := (W2_of_ne m ρ c main_arg14 (by decide)).trans (by host_keep hostOps0)
  a15 := (W2_of_ne m ρ c main_arg15 (by decide)).trans (by host_keep hostOps0)

/-- After launch 1: stretch 1 and launch 1 write none of the carried buffers. -/
theorem carried2 (c : Dev nD) (A : Cert.Net.Args) (h : Carried (W2 m ρ c) A) : Carried (W4 m ρ c) A where
  src := (W4_of_ne m ρ c main_v1 (by decide)).trans (Eq.trans (by host_keep hostOps1) h.src)
  dst := (W4_of_ne m ρ c main_v3 (by decide)).trans (Eq.trans (by host_keep hostOps1) h.dst)
  a2 := (W4_of_ne m ρ c main_arg2 (by decide)).trans (Eq.trans (by host_keep hostOps1) h.a2)
  a7 := (W4_of_ne m ρ c main_arg7 (by decide)).trans (Eq.trans (by host_keep hostOps1) h.a7)
  a8 := (W4_of_ne m ρ c main_arg8 (by decide)).trans (Eq.trans (by host_keep hostOps1) h.a8)
  a9 := (W4_of_ne m ρ c main_arg9 (by decide)).trans (Eq.trans (by host_keep hostOps1) h.a9)
  a10 := (W4_of_ne m ρ c main_arg10 (by decide)).trans (Eq.trans (by host_keep hostOps1) h.a10)
  a11 := (W4_of_ne m ρ c main_arg11 (by decide)).trans (Eq.trans (by host_keep hostOps1) h.a11)
  a12 := (W4_of_ne m ρ c main_arg12 (by decide)).trans (Eq.trans (by host_keep hostOps1) h.a12)
  a13 := (W4_of_ne m ρ c main_arg13 (by decide)).trans (Eq.trans (by host_keep hostOps1) h.a13)
  a14 := (W4_of_ne m ρ c main_arg14 (by decide)).trans (Eq.trans (by host_keep hostOps1) h.a14)
  a15 := (W4_of_ne m ρ c main_arg15 (by decide)).trans (Eq.trans (by host_keep hostOps1) h.a15)

/-- After launch 2: stretch 2 and launch 2 write none of the carried buffers. -/
theorem carried3 (c : Dev nD) (A : Cert.Net.Args) (h : Carried (W4 m ρ c) A) : Carried (W6 m ρ c) A where
  src := (W6_of_ne m ρ c main_v1 (by decide)).trans (Eq.trans (by host_keep hostOps2) h.src)
  dst := (W6_of_ne m ρ c main_v3 (by decide)).trans (Eq.trans (by host_keep hostOps2) h.dst)
  a2 := (W6_of_ne m ρ c main_arg2 (by decide)).trans (Eq.trans (by host_keep hostOps2) h.a2)
  a7 := (W6_of_ne m ρ c main_arg7 (by decide)).trans (Eq.trans (by host_keep hostOps2) h.a7)
  a8 := (W6_of_ne m ρ c main_arg8 (by decide)).trans (Eq.trans (by host_keep hostOps2) h.a8)
  a9 := (W6_of_ne m ρ c main_arg9 (by decide)).trans (Eq.trans (by host_keep hostOps2) h.a9)
  a10 := (W6_of_ne m ρ c main_arg10 (by decide)).trans (Eq.trans (by host_keep hostOps2) h.a10)
  a11 := (W6_of_ne m ρ c main_arg11 (by decide)).trans (Eq.trans (by host_keep hostOps2) h.a11)
  a12 := (W6_of_ne m ρ c main_arg12 (by decide)).trans (Eq.trans (by host_keep hostOps2) h.a12)
  a13 := (W6_of_ne m ρ c main_arg13 (by decide)).trans (Eq.trans (by host_keep hostOps2) h.a13)
  a14 := (W6_of_ne m ρ c main_arg14 (by decide)).trans (Eq.trans (by host_keep hostOps2) h.a14)
  a15 := (W6_of_ne m ρ c main_arg15 (by decide)).trans (Eq.trans (by host_keep hostOps2) h.a15)

/-- After launch 3: stretch 3 and launch 3 write none of the carried buffers. -/
theorem carried4 (c : Dev nD) (A : Cert.Net.Args) (h : Carried (W6 m ρ c) A) : Carried (W8 m ρ c) A where
  src := (W8_of_ne m ρ c main_v1 (by decide)).trans (Eq.trans (by host_keep hostOps3) h.src)
  dst := (W8_of_ne m ρ c main_v3 (by decide)).trans (Eq.trans (by host_keep hostOps3) h.dst)
  a2 := (W8_of_ne m ρ c main_arg2 (by decide)).trans (Eq.trans (by host_keep hostOps3) h.a2)
  a7 := (W8_of_ne m ρ c main_arg7 (by decide)).trans (Eq.trans (by host_keep hostOps3) h.a7)
  a8 := (W8_of_ne m ρ c main_arg8 (by decide)).trans (Eq.trans (by host_keep hostOps3) h.a8)
  a9 := (W8_of_ne m ρ c main_arg9 (by decide)).trans (Eq.trans (by host_keep hostOps3) h.a9)
  a10 := (W8_of_ne m ρ c main_arg10 (by decide)).trans (Eq.trans (by host_keep hostOps3) h.a10)
  a11 := (W8_of_ne m ρ c main_arg11 (by decide)).trans (Eq.trans (by host_keep hostOps3) h.a11)
  a12 := (W8_of_ne m ρ c main_arg12 (by decide)).trans (Eq.trans (by host_keep hostOps3) h.a12)
  a13 := (W8_of_ne m ρ c main_arg13 (by decide)).trans (Eq.trans (by host_keep hostOps3) h.a13)
  a14 := (W8_of_ne m ρ c main_arg14 (by decide)).trans (Eq.trans (by host_keep hostOps3) h.a14)
  a15 := (W8_of_ne m ρ c main_arg15 (by decide)).trans (Eq.trans (by host_keep hostOps3) h.a15)

/-- After launch 4: stretch 4 and launch 4 write none of the carried buffers. -/
theorem carried5 (c : Dev nD) (A : Cert.Net.Args) (h : Carried (W8 m ρ c) A) : Carried (W10 m ρ c) A where
  src := (W10_of_ne m ρ c main_v1 (by decide)).trans (Eq.trans (by host_keep hostOps4) h.src)
  dst := (W10_of_ne m ρ c main_v3 (by decide)).trans (Eq.trans (by host_keep hostOps4) h.dst)
  a2 := (W10_of_ne m ρ c main_arg2 (by decide)).trans (Eq.trans (by host_keep hostOps4) h.a2)
  a7 := (W10_of_ne m ρ c main_arg7 (by decide)).trans (Eq.trans (by host_keep hostOps4) h.a7)
  a8 := (W10_of_ne m ρ c main_arg8 (by decide)).trans (Eq.trans (by host_keep hostOps4) h.a8)
  a9 := (W10_of_ne m ρ c main_arg9 (by decide)).trans (Eq.trans (by host_keep hostOps4) h.a9)
  a10 := (W10_of_ne m ρ c main_arg10 (by decide)).trans (Eq.trans (by host_keep hostOps4) h.a10)
  a11 := (W10_of_ne m ρ c main_arg11 (by decide)).trans (Eq.trans (by host_keep hostOps4) h.a11)
  a12 := (W10_of_ne m ρ c main_arg12 (by decide)).trans (Eq.trans (by host_keep hostOps4) h.a12)
  a13 := (W10_of_ne m ρ c main_arg13 (by decide)).trans (Eq.trans (by host_keep hostOps4) h.a13)
  a14 := (W10_of_ne m ρ c main_arg14 (by decide)).trans (Eq.trans (by host_keep hostOps4) h.a14)
  a15 := (W10_of_ne m ρ c main_arg15 (by decide)).trans (Eq.trans (by host_keep hostOps4) h.a15)

/-- After launch 5: stretch 5 and launch 5 write none of the carried buffers. -/
theorem carried6 (c : Dev nD) (A : Cert.Net.Args) (h : Carried (W10 m ρ c) A) : Carried (W12 m ρ c) A where
  src := (W12_of_ne m ρ c main_v1 (by decide)).trans (Eq.trans (by host_keep hostOps5) h.src)
  dst := (W12_of_ne m ρ c main_v3 (by decide)).trans (Eq.trans (by host_keep hostOps5) h.dst)
  a2 := (W12_of_ne m ρ c main_arg2 (by decide)).trans (Eq.trans (by host_keep hostOps5) h.a2)
  a7 := (W12_of_ne m ρ c main_arg7 (by decide)).trans (Eq.trans (by host_keep hostOps5) h.a7)
  a8 := (W12_of_ne m ρ c main_arg8 (by decide)).trans (Eq.trans (by host_keep hostOps5) h.a8)
  a9 := (W12_of_ne m ρ c main_arg9 (by decide)).trans (Eq.trans (by host_keep hostOps5) h.a9)
  a10 := (W12_of_ne m ρ c main_arg10 (by decide)).trans (Eq.trans (by host_keep hostOps5) h.a10)
  a11 := (W12_of_ne m ρ c main_arg11 (by decide)).trans (Eq.trans (by host_keep hostOps5) h.a11)
  a12 := (W12_of_ne m ρ c main_arg12 (by decide)).trans (Eq.trans (by host_keep hostOps5) h.a12)
  a13 := (W12_of_ne m ρ c main_arg13 (by decide)).trans (Eq.trans (by host_keep hostOps5) h.a13)
  a14 := (W12_of_ne m ρ c main_arg14 (by decide)).trans (Eq.trans (by host_keep hostOps5) h.a14)
  a15 := (W12_of_ne m ρ c main_arg15 (by decide)).trans (Eq.trans (by host_keep hostOps5) h.a15)

end Cert.KernelIdeal.Chain

end
-- ==== Proof.Conv0.lean ====
/-
  THE DENSE STAGE OF GRAPH-CONVOLUTION LAYER 0, RUN BY A KERNEL OVER BLOCKS OF 2000 NODES.

  The kernel's grid has 20 points; point t is handed rows 2000·t … 2000·t + 1999 of the aggregated features and of the
  node features ([2000, 64] blocks), the two whole weight matrices [64, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv0

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x64 .f32) (v6 v8 : Vec Ideal S64x256 .f32) (v13 : Vec Ideal S1x256 .f32) :
    k0_pay1 v0 v3 v6 v8 v13 = conv v0 v3 v6 v8 v13 := by
  unfold k0_pay1
  simp only [shapeCast_self]
  rw [eq_plain dot_S2000x64_S64x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the stage of the arrays the launch found. -/
theorem flushed_eq (c : Dev nD) (t : Fin cfg0.N) :
    (dat0 V c).flushed 5 t = ((cfg0.win 5).blk t).view.read (Elt Ideal)
      (conv (V c main_v20) (V c main_v10) (V c main_arg4) (V c main_arg6) (V c main_v21)) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk0 V c 0 t (ix2 (y 0) k) = V c main_v20 _
    unfold iblk0; rw [View.read_apply]
    show V c main_v20 _ = V c main_v20 _
    refine congrArg _ (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 64 + 1 * k.val = k.val; omega
  · show iblk0 V c 1 t (ix2 (y 0) k) = V c main_v10 _
    unfold iblk0; rw [View.read_apply]
    show V c main_v10 _ = V c main_v10 _
    refine congrArg _ (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 64 + 1 * k.val = k.val; omega
  · show iblk0 V c 2 t (ix2 k (y 1)) = V c main_arg4 _
    unfold iblk0; rw [View.read_apply]
    show V c main_arg4 _ = V c main_arg4 _
    refine congrArg _ (funext fun a => Fin.ext ?_)
    match a with
    | ⟨0, _⟩ => show win0_2.index t (0 : Fin 2) * 64 + 1 * k.val = k.val; omega
    | ⟨1, _⟩ => show win0_2.index t (1 : Fin 2) * 256 + 1 * (y 1).val = win0_5.index t (1 : Fin 2) * 256 + 1 * (y 1).val; omega
  · show iblk0 V c 4 t (ix2 k (y 1)) = V c main_arg6 _
    unfold iblk0; rw [View.read_apply]
    show V c main_arg6 _ = V c main_arg6 _
    refine congrArg _ (funext fun a => Fin.ext ?_)
    match a with
    | ⟨0, _⟩ => show win0_4.index t (0 : Fin 2) * 64 + 1 * k.val = k.val; omega
    | ⟨1, _⟩ => show win0_4.index t (1 : Fin 2) * 256 + 1 * (y 1).val = win0_5.index t (1 : Fin 2) * 256 + 1 * (y 1).val; omega
  · show iblk0 V c 3 t (ix2 0 (y 1)) = V c main_v21 _
    unfold iblk0; rw [View.read_apply]
    show V c main_v21 _ = V c main_v21 _
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * (y 1).val = win0_5.index t (1 : Fin 2) * 256 + 1 * (y 1).val; omega

/-- An index of the result array is in point `t`'s block iff each coordinate is in the block's range on its axis. -/
theorem mem_blk (t : Fin cfg0.N) (i : S40000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v22).slice (win0_5.rect t)).set ↔ _
  rw [View.set_slice_whole, Rect.mem_set_unit]
  exact Iff.rfl

/-- Every index of the result array is in some point's block: row r is in block r / 2000. -/
theorem cover (i : S40000x256.Idx) :
    ∃ t : Fin cfg0.N, (cfg0.win 5).flush t = true ∧ i ∈ ((cfg0.win 5).blk t).view.set := by
  have hN : cfg0.N = 20 := N_0
  have hi0 : (i 0).val < 40000 := (i 0).isLt
  have hi1 : (i 1).val < 256 := (i 1).isLt
  refine ⟨⟨(i 0).val / 2000, by rw [hN]; omega⟩, flush0_5 _, ?_⟩
  rw [mem_blk]
  obtain ⟨-, -, -, -, -, -, -, -, -, -, e50, e51⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 256 ≤ (i 1).val ∧ (i 1).val < win0_5.index _ (1 : Fin 2) * 256 + 256
    rw [e51]; omega

/-- THE RESULT ARRAY after the launch is the stage of the arrays the launch found. -/
theorem final (c : Dev nD) : (dat0 V c).arrAt 5 cfg0.N
    = conv (V c main_v20) (V c main_v10) (V c main_arg4) (V c main_arg6) (V c main_v21) :=
  (dat0 V c).arrAt_eq_of_cover 5 _ (fun t _ => flushed_eq V c t) cover

end Cert.KernelIdeal.Conv0

end
-- ==== Proof.Stage1.lean ====
/-
  THE FIRST LAYER, READ OFF THE RUN.

  The first stretch of host operations picks the embedded node features x0 (rows of the embedding table), gathers the
  source rows along the edges and scatter-adds them at the destination rows, and recasts the bias vector as a row; the
  first launch then leaves, in its result array, the dense stage of those arrays. Each operand the launch finds is
  the specification's term of the arguments — the same host operations on the same arguments —, and a bias vector recast
  as a row is the vector broadcast along a new leading axis.
-/
import proofs.«164607_j60988535603354_1_alg».proof.Proof.ChainBase
import proofs.«164607_j60988535603354_1_alg».proof.Proof.Conv0

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After the first launch the result array holds the first layer's features. -/
theorem stage1 (c : Dev nD) : W2 m ρ c (Proc.devRef .tc main_v22) = Cert.Net.x1 (argsOf m c) := by
  refine ((W2_arr m ρ c 5).trans (Conv0.final (V1 m ρ) c)).trans ?_
  have e0 : (V1 m ρ c main_v20 : S40000x64.Idx → EReal) = Cert.Net.agg64 (Cert.Net.x0 (argsOf m c)) (argsOf m c).a1 := by
    show StableHlo.after hostOps0 (W0 m ρ c) (Proc.devRef .tc main_v20) = _
    after_results
    rfl
  have e1 : (V1 m ρ c main_v10 : S40000x64.Idx → EReal) = Cert.Net.x0 (argsOf m c) := by
    show StableHlo.after hostOps0 (W0 m ρ c) (Proc.devRef .tc main_v10) = _
    after_results
    rfl
  have e2 : (V1 m ρ c main_arg4 : S64x256.Idx → EReal) = (argsOf m c).a4 := by
    show StableHlo.after hostOps0 (W0 m ρ c) (Proc.devRef .tc main_arg4) = _
    after_results
    rfl
  have e3 : (V1 m ρ c main_v21 : S1x256.Idx → EReal) = Cert.ReferenceIdeal.Read.val_main_v22 (F := Ideal) (argsOf m c).a5 := by
    show StableHlo.after hostOps0 (W0 m ρ c) (Proc.devRef .tc main_v21) = _
    after_results
    exact rowCast_eq_inDim _ _ _
  have e4 : (V1 m ρ c main_arg6 : S64x256.Idx → EReal) = (argsOf m c).a6 := by
    show StableHlo.after hostOps0 (W0 m ρ c) (Proc.devRef .tc main_arg6) = _
    after_results
    rfl
  rw [e0, e1, e2, e3, e4]
  rfl

end Cert.KernelIdeal.Chain

end
-- ==== Proof.Conv1.lean ====
/-
  THE DENSE STAGE OF GRAPH-CONVOLUTION LAYER 1, RUN BY A KERNEL OVER BLOCKS OF 2000 NODES.

  The kernel's grid has 20 points; point t is handed rows 2000·t … 2000·t + 1999 of the aggregated features and of the
  node features ([2000, 256] blocks), the two whole weight matrices [256, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv1

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x256 .f32) (v6 v8 : Vec Ideal S256x256 .f32) (v13 : Vec Ideal S1x256 .f32) :
    k1_pay1 v0 v3 v6 v8 v13 = conv v0 v3 v6 v8 v13 := by
  unfold k1_pay1
  simp only [shapeCast_self]
  rw [eq_plain dot_S2000x256_S256x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the stage of the arrays the launch found. -/
theorem flushed_eq (c : Dev nD) (t : Fin cfg1.N) :
    (dat1 V c).flushed 5 t = ((cfg1.win 5).blk t).view.read (Elt Ideal)
      (conv (V c main_v38) (V c main_v22) (V c main_v24) (V c main_v28) (V c main_v39)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk1 V c 0 t (ix2 (y 0) k) = V c main_v38 _
    unfold iblk1; rw [View.read_apply]
    show V c main_v38 _ = V c main_v38 _
    refine congrArg _ (funext fun a => Fin.ext ?_)
    match a with
    | ⟨0, _⟩ => show win1_0.index t (0 : Fin 2) * 2000 + 1 * (y 0).val = win1_5.index t (0 : Fin 2) * 2000 + 1 * (y 0).val; omega
    | ⟨1, _⟩ => show win1_0.index t (1 : Fin 2) * 256 + 1 * k.val = k.val; omega
  · show iblk1 V c 1 t (ix2 (y 0) k) = V c main_v22 _
    unfold iblk1; rw [View.read_apply]
    show V c main_v22 _ = V c main_v22 _
    refine congrArg _ (funext fun a => Fin.ext ?_)
    match a with
    | ⟨0, _⟩ => show win1_1.index t (0 : Fin 2) * 2000 + 1 * (y 0).val = win1_5.index t (0 : Fin 2) * 2000 + 1 * (y 0).val; omega
    | ⟨1, _⟩ => show win1_1.index t (1 : Fin 2) * 256 + 1 * k.val = k.val; omega
  · show iblk1 V c 2 t (ix2 k (y 1)) = V c main_v24 _
    unfold iblk1; rw [View.read_apply]
    show V c main_v24 _ = V c main_v24 _
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * (y 1).val = win1_5.index t (1 : Fin 2) * 256 + 1 * (y 1).val; omega
  · show iblk1 V c 4 t (ix2 k (y 1)) = V c main_v28 _
    unfold iblk1; rw [View.read_apply]
    show V c main_v28 _ = V c main_v28 _
    refine congrArg _ (funext fun a => Fin.ext ?_)
    match a with
    | ⟨0, _⟩ => show win1_4.index t (0 : Fin 2) * 256 + 1 * k.val = k.val; omega
    | ⟨1, _⟩ => show win1_4.index t (1 : Fin 2) * 256 + 1 * (y 1).val = win1_5.index t (1 : Fin 2) * 256 + 1 * (y 1).val; omega
  · show iblk1 V c 3 t (ix2 0 (y 1)) = V c main_v39 _
    unfold iblk1; rw [View.read_apply]
    show V c main_v39 _ = V c main_v39 _
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * (y 1).val = win1_5.index t (1 : Fin 2) * 256 + 1 * (y 1).val; omega

/-- An index of the result array is in point `t`'s block iff each coordinate is in the block's range on its axis. -/
theorem mem_blk (t : Fin cfg1.N) (i : S40000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v40).slice (win1_5.rect t)).set ↔ _
  rw [View.set_slice_whole, Rect.mem_set_unit]
  exact Iff.rfl

/-- Every index of the result array is in some point's block: row r is in block r / 2000. -/
theorem cover (i : S40000x256.Idx) :
    ∃ t : Fin cfg1.N, (cfg1.win 5).flush t = true ∧ i ∈ ((cfg1.win 5).blk t).view.set := by
  have hN : cfg1.N = 20 := N_1
  have hi0 : (i 0).val < 40000 := (i 0).isLt
  have hi1 : (i 1).val < 256 := (i 1).isLt
  refine ⟨⟨(i 0).val / 2000, by rw [hN]; omega⟩, flush1_5 _, ?_⟩
  rw [mem_blk]
  obtain ⟨-, -, -, -, -, -, -, -, -, -, e50, e51⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e51]; omega

/-- THE RESULT ARRAY after the launch is the stage of the arrays the launch found. -/
theorem final (c : Dev nD) : (dat1 V c).arrAt 5 cfg1.N
    = conv (V c main_v38) (V c main_v22) (V c main_v24) (V c main_v28) (V c main_v39) :=
  (dat1 V c).arrAt_eq_of_cover 5 _ (fun t _ => flushed_eq V c t) cover

end Cert.KernelIdeal.Conv1

end
-- ==== Proof.Stage2.lean ====
/-
  LAYER 2, READ OFF THE RUN.

  Stretch 1 of host operations slices matrix 0 of each stacked weight argument and row 0 of the stacked biases,
  gathers the previous layer's rows along the edges and scatter-adds them at the destination rows; launch 1 leaves the
  dense stage of those arrays in its result array. Given the previous layer's features and the carried index vectors and
  arguments, each operand the launch finds is the specification's term.
-/
import proofs.«164607_j60988535603354_1_alg».proof.Proof.ChainBase
import proofs.«164607_j60988535603354_1_alg».proof.Proof.Conv1

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After launch 1 the result array holds layer 2's features, if the previous result array held layer 1's. -/
theorem stage2 (c : Dev nD) (A : Cert.Net.Args) (h : Carried (W2 m ρ c) A)
    (X : W2 m ρ c (Proc.devRef .tc main_v22) = Cert.Net.x1 A) :
    W4 m ρ c (Proc.devRef .tc main_v40) = Cert.Net.x2 A := by
  refine ((W4_arr m ρ c 5).trans (Conv1.final (V3 m ρ) c)).trans ?_
  have e0 : (V3 m ρ c main_v38 : S40000x256.Idx → EReal) = Cert.Net.agg256 (Cert.Net.x1 A) A.a1 := by
    show StableHlo.after hostOps1 (W2 m ρ c) (Proc.devRef .tc main_v38) = _
    after_results
    rw [h.src, h.dst, X]
    rfl
  have e1 : (V3 m ρ c main_v22 : S40000x256.Idx → EReal) = Cert.Net.x1 A := by
    show StableHlo.after hostOps1 (W2 m ρ c) (Proc.devRef .tc main_v22) = _
    after_results
    exact X
  have e2 : (V3 m ρ c main_v24 : S256x256.Idx → EReal) = Cert.ReferenceIdeal.Read.val_main_v29 (F := Ideal) A.a7 := by
    show StableHlo.after hostOps1 (W2 m ρ c) (Proc.devRef .tc main_v24) = _
    after_results
    rw [h.a7]
    rfl
  have e3 : (V3 m ρ c main_v39 : S1x256.Idx → EReal) = Cert.ReferenceIdeal.Read.val_main_v45 (F := Ideal) A.a8 := by
    show StableHlo.after hostOps1 (W2 m ρ c) (Proc.devRef .tc main_v39) = _
    after_results
    rw [h.a8]
    exact rowCast_eq_inDim _ _ _
  have e4 : (V3 m ρ c main_v28 : S256x256.Idx → EReal) = Cert.ReferenceIdeal.Read.val_main_v33 (F := Ideal) A.a9 := by
    show StableHlo.after hostOps1 (W2 m ρ c) (Proc.devRef .tc main_v28) = _
    after_results
    rw [h.a9]
    rfl
  rw [e0, e1, e2, e3, e4]
  rfl

end Cert.KernelIdeal.Chain

end
-- ==== Proof.Conv2.lean ====
/-
  THE DENSE STAGE OF GRAPH-CONVOLUTION LAYER 2, RUN BY A KERNEL OVER BLOCKS OF 2000 NODES.

  The kernel's grid has 20 points; point t is handed rows 2000·t … 2000·t + 1999 of the aggregated features and of the
  node features ([2000, 256] blocks), the two whole weight matrices [256, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv2

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x256 .f32) (v6 v8 : Vec Ideal S256x256 .f32) (v13 : Vec Ideal S1x256 .f32) :
    k2_pay1 v0 v3 v6 v8 v13 = conv v0 v3 v6 v8 v13 := by
  unfold k2_pay1
  simp only [shapeCast_self]
  rw [eq_plain dot_S2000x256_S256x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of the stage of the arrays the launch found. -/
theorem flushed_eq (c : Dev nD) (t : Fin cfg2.N) :
    (dat2 V c).flushed 5 t = ((cfg2.win 5).blk t).view.read (Elt Ideal)
      (conv (V c main_v56) (V c main_v40) (V c main_v42) (V c main_v46) (V c main_v57)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk2 V c 0 t (ix2 (y 0) k) = V c main_v56 _
    unfold iblk2; rw [View.read_apply]
    show V c main_v56 _ = V c main_v56 _
    refine congrArg _ (funext fun a => Fin.ext ?_)
    match a with
    | ⟨0, _⟩ => show win2_0.index t (0 : Fin 2) * 2000 + 1 * (y 0).val = win2_5.index t (0 : Fin 2) * 2000 + 1 * (y 0).val; omega
    | ⟨1, _⟩ => show win2_0.index t (1 : Fin 2) * 256 + 1 * k.val = k.val; omega
  · show iblk2 V c 1 t (ix2 (y 0) k) = V c main_v40 _
    unfold iblk2; rw [View.read_apply]
    show V c main_v40 _ = V c main_v40 _
    refine congrArg _ (funext fun a => Fin.ext ?_)
    match a with
    | ⟨0, _⟩ => show win2_1.index t (0 : Fin 2) * 2000 + 1 * (y 0).val = win2_5.index t (0 : Fin 2) * 2000 + 1 * (y 0).val; omega
    | ⟨1, _⟩ => show win2_1.index t (1 : Fin 2) * 256 + 1 * k.val = k.val; omega
  · show iblk2 V c 2 t (ix2 k (y 1)) = V c main_v42 _
    unfold iblk2; rw [View.read_apply]
    show V c main_v42 _ = V c main_v42 _
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * (y 1).val = win2_5.index t (1 : Fin 2) * 256 + 1 * (y 1).val; omega
  · show iblk2 V c 4 t (ix2 k (y 1)) = V c main_v46 _
    unfold iblk2; rw [View.read_apply]
    show V c main_v46 _ = V c main_v46 _
    refine congrArg _ (funext fun a => Fin.ext ?_)
    match a with
    | ⟨0, _⟩ => show win2_4.index t (0 : Fin 2) * 256 + 1 * k.val = k.val; omega
    | ⟨1, _⟩ => show win2_4.index t (1 : Fin 2) * 256 + 1 * (y 1).val = win2_5.index t (1 : Fin 2) * 256 + 1 * (y 1).val; omega
  · show iblk2 V c 3 t (ix2 0 (y 1)) = V c main_v57 _
    unfold iblk2; rw [View.read_apply]
    show V c main_v57 _ = V c main_v57 _
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * (y 1).val = win2_5.index t (1 : Fin 2) * 256 + 1 * (y 1).val; omega

/-- An index of the result array is in point `t`'s block iff each coordinate is in the block's range on its axis. -/
theorem mem_blk (t : Fin cfg2.N) (i : S40000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v58).slice (win2_5.rect t)).set ↔ _
  rw [View.set_slice_whole, Rect.mem_set_unit]
  exact Iff.rfl

/-- Every index of the result array is in some point's block: row r is in block r / 2000. -/
theorem cover (i : S40000x256.Idx) :
    ∃ t : Fin cfg2.N, (cfg2.win 5).flush t = true ∧ i ∈ ((cfg2.win 5).blk t).view.set := by
  have hN : cfg2.N = 20 := N_2
  have hi0 : (i 0).val < 40000 := (i 0).isLt
  have hi1 : (i 1).val < 256 := (i 1).isLt
  refine ⟨⟨(i 0).val / 2000, by rw [hN]; omega⟩, flush2_5 _, ?_⟩
  rw [mem_blk]
  obtain ⟨-, -, -, -, -, -, -, -, -, -, e50, e51⟩ := idx_facts ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e50]; show (i 0).val / 2000 * 2000 ≤ (i 0).val ∧ (i 0).val < (i 0).val / 2000 * 2000 + 2000; omega
  | ⟨1, _⟩ =>
    show win2_5.index _ (1 : Fin 2) * 256 ≤ (i 1).val ∧ (i 1).val < win2_5.index _ (1 : Fin 2) * 256 + 256
    rw [e51]; omega

/-- THE RESULT ARRAY after the launch is the stage of the arrays the launch found. -/
theorem final (c : Dev nD) : (dat2 V c).arrAt 5 cfg2.N
    = conv (V c main_v56) (V c main_v40) (V c main_v42) (V c main_v46) (V c main_v57) :=
  (dat2 V c).arrAt_eq_of_cover 5 _ (fun t _ => flushed_eq V c t) cover

end Cert.KernelIdeal.Conv2

end
-- ==== Proof.Stage3.lean ====
/-
  LAYER 3, READ OFF THE RUN.

  Stretch 2 of host operations slices matrix 1 of each stacked weight argument and row 1 of the stacked biases,
  gathers the previous layer's rows along the edges and scatter-adds them at the destination rows; launch 2 leaves the
  dense stage of those arrays in its result array. Given the previous layer's features and the carried index vectors and
  arguments, each operand the launch finds is the specification's term.
-/
import proofs.«164607_j60988535603354_1_alg».proof.Proof.ChainBase
import proofs.«164607_j60988535603354_1_alg».proof.Proof.Conv2

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After launch 2 the result array holds layer 3's features, if the previous result array held layer 2's. -/
theorem stage3 (c : Dev nD) (A : Cert.Net.Args) (h : Carried (W4 m ρ c) A)
    (X : W4 m ρ c (Proc.devRef .tc main_v40) = Cert.Net.x2 A) :
    W6 m ρ c (Proc.devRef .tc main_v58) = Cert.Net.x3 A := by
  refine ((W6_arr m ρ c 5).trans (Conv2.final (V5 m ρ) c)).trans ?_
  have e0 : (V5 m ρ c main_v56 : S40000x256.Idx → EReal) = Cert.Net.agg256 (Cert.Net.x2 A) A.a1 := by
    show StableHlo.after hostOps2 (W4 m ρ c) (Proc.devRef .tc main_v56) = _
    after_results
    rw [h.src, h.dst, X]
    rfl
  have e1 : (V5 m ρ c main_v40 : S40000x256.Idx → EReal) = Cert.Net.x2 A := by
    show StableHlo.after hostOps2 (W4 m ρ c) (Proc.devRef .tc main_v40) = _
    after_results
    exact X
  have e2 : (V5 m ρ c main_v42 : S256x256.Idx → EReal) = Cert.ReferenceIdeal.Read.val_main_v52 (F := Ideal) A.a7 := by
    show StableHlo.after hostOps2 (W4 m ρ c) (Proc.devRef .tc main_v42) = _
    after_results
    rw [h.a7]
    rfl
  have e3 : (V5 m ρ c main_v57 : S1x256.Idx → EReal) = Cert.ReferenceIdeal.Read.val_main_v68 (F := Ideal) A.a8 := by
    show StableHlo.after hostOps2 (W4 m ρ c) (Proc.devRef .tc main_v57) = _
    after_results
    rw [h.a8]
    exact rowCast_eq_inDim _ _ _
  have e4 : (V5 m ρ c main_v46 : S256x256.Idx → EReal) = Cert.ReferenceIdeal.Read.val_main_v56 (F := Ideal) A.a9 := by
    show StableHlo.after hostOps2 (W4 m ρ c) (Proc.devRef .tc main_v46) = _
    after_results
    rw [h.a9]
    rfl
  rw [e0, e1, e2, e3, e4]
  rfl

end Cert.KernelIdeal.Chain

end
-- ==== Proof.Conv3.lean ====
/-
  THE DENSE STAGE OF GRAPH-CONVOLUTION LAYER 3, RUN BY A KERNEL OVER BLOCKS OF 2000 NODES.

  The kernel's grid has 20 points; point t is handed rows 2000·t … 2000·t + 1999 of the aggregated features and of the
  node features ([2000, 256] blocks), the two whole weight matrices [256, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv3

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x256 .f32) (v6 v8 : Vec Ideal S256x256 .f32) (v13 : Vec Ideal S1x256 .f32) :
    k3_pay1 v0 v3 v6 v8 v13 = conv v0 v3 v6 v8 v13 := by
  unfold k3_pay1
  simp only [shapeCast_self]
  rw [eq_plain dot_S2000x256_S256x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of the stage of the arrays the launch found. -/
theorem flushed_eq (c : Dev nD) (t : Fin cfg3.N) :
    (dat3 V c).flushed 5 t = ((cfg3.win 5).blk t).view.read (Elt Ideal)
      (conv (V c main_v74) (V c main_v58) (V c main_v60) (V c main_v64) (V c main_v75)) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk3 V c 0 t (ix2 (y 0) k) = V c main_v74 _
    unfold iblk3; rw [View.read_apply]
    show V c main_v74 _ = V c main_v74 _
    refine congrArg _ (funext fun a => Fin.ext ?_)
    match a with
    | ⟨0, _⟩ => show win3_0.index t (0 : Fin 2) * 2000 + 1 * (y 0).val = win3_5.index t (0 : Fin 2) * 2000 + 1 * (y 0).val; omega
    | ⟨1, _⟩ => show win3_0.index t (1 : Fin 2) * 256 + 1 * k.val = k.val; omega
  · show iblk3 V c 1 t (ix2 (y 0) k) = V c main_v58 _
    unfold iblk3; rw [View.read_apply]
    show V c main_v58 _ = V c main_v58 _
    refine congrArg _ (funext fun a => Fin.ext ?_)
    match a with
    | ⟨0, _⟩ => show win3_1.index t (0 : Fin 2) * 2000 + 1 * (y 0).val = win3_5.index t (0 : Fin 2) * 2000 + 1 * (y 0).val; omega
    | ⟨1, _⟩ => show win3_1.index t (1 : Fin 2) * 256 + 1 * k.val = k.val; omega
  · show iblk3 V c 2 t (ix2 k (y 1)) = V c main_v60 _
    unfold iblk3; rw [View.read_apply]
    show V c main_v60 _ = V c main_v60 _
    refine congrArg _ (funext fun a => Fin.ext ?_)
    match a with
    | ⟨0, _⟩ => show win3_2.index t (0 : Fin 2) * 256 + 1 * k.val = k.val; omega
    | ⟨1, _⟩ => show win3_2.index t (1 : Fin 2) * 256 + 1 * (y 1).val = win3_5.index t (1 : Fin 2) * 256 + 1 * (y 1).val; omega
  · show iblk3 V c 4 t (ix2 k (y 1)) = V c main_v64 _
    unfold iblk3; rw [View.read_apply]
    show V c main_v64 _ = V c main_v64 _
    refine congrArg _ (funext fun a => Fin.ext ?_)
    match a with
    | ⟨0, _⟩ => show win3_4.index t (0 : Fin 2) * 256 + 1 * k.val = k.val; omega
    | ⟨1, _⟩ => show win3_4.index t (1 : Fin 2) * 256 + 1 * (y 1).val = win3_5.index t (1 : Fin 2) * 256 + 1 * (y 1).val; omega
  · show iblk3 V c 3 t (ix2 0 (y 1)) = V c main_v75 _
    unfold iblk3; rw [View.read_apply]
    show V c main_v75 _ = V c main_v75 _
    refine congrArg _ (funext fun a => Fin.ext ?_)
    match a with
    | ⟨0, _⟩ => show win3_3.index t (0 : Fin 2) * 1 + 1 * 0 = 0; omega
    | ⟨1, _⟩ => show win3_3.index t (1 : Fin 2) * 256 + 1 * (y 1).val = win3_5.index t (1 : Fin 2) * 256 + 1 * (y 1).val; omega

/-- An index of the result array is in point `t`'s block iff each coordinate is in the block's range on its axis. -/
theorem mem_blk (t : Fin cfg3.N) (i : S40000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v76).slice (win3_5.rect t)).set ↔ _
  rw [View.set_slice_whole, Rect.mem_set_unit]
  exact Iff.rfl

/-- Every index of the result array is in some point's block: row r is in block r / 2000. -/
theorem cover (i : S40000x256.Idx) :
    ∃ t : Fin cfg3.N, (cfg3.win 5).flush t = true ∧ i ∈ ((cfg3.win 5).blk t).view.set := by
  have hN : cfg3.N = 20 := N_3
  have hi0 : (i 0).val < 40000 := (i 0).isLt
  have hi1 : (i 1).val < 256 := (i 1).isLt
  refine ⟨⟨(i 0).val / 2000, by rw [hN]; omega⟩, flush3_5 _, ?_⟩
  rw [mem_blk]
  obtain ⟨-, -, -, -, -, -, -, -, -, -, e50, e51⟩ := idx_facts ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e50]; show (i 0).val / 2000 * 2000 ≤ (i 0).val ∧ (i 0).val < (i 0).val / 2000 * 2000 + 2000; omega
  | ⟨1, _⟩ =>
    show win3_5.index _ (1 : Fin 2) * 256 ≤ (i 1).val ∧ (i 1).val < win3_5.index _ (1 : Fin 2) * 256 + 256
    rw [e51]; omega

/-- THE RESULT ARRAY after the launch is the stage of the arrays the launch found. -/
theorem final (c : Dev nD) : (dat3 V c).arrAt 5 cfg3.N
    = conv (V c main_v74) (V c main_v58) (V c main_v60) (V c main_v64) (V c main_v75) :=
  (dat3 V c).arrAt_eq_of_cover 5 _ (fun t _ => flushed_eq V c t) cover

end Cert.KernelIdeal.Conv3

end
-- ==== Proof.Stage4.lean ====
/-
  LAYER 4, READ OFF THE RUN.

  Stretch 3 of host operations slices matrix 2 of each stacked weight argument and row 2 of the stacked biases,
  gathers the previous layer's rows along the edges and scatter-adds them at the destination rows; launch 3 leaves the
  dense stage of those arrays in its result array. Given the previous layer's features and the carried index vectors and
  arguments, each operand the launch finds is the specification's term.
-/
import proofs.«164607_j60988535603354_1_alg».proof.Proof.ChainBase
import proofs.«164607_j60988535603354_1_alg».proof.Proof.Conv3

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After launch 3 the result array holds layer 4's features, if the previous result array held layer 3's. -/
theorem stage4 (c : Dev nD) (A : Cert.Net.Args) (h : Carried (W6 m ρ c) A)
    (X : W6 m ρ c (Proc.devRef .tc main_v58) = Cert.Net.x3 A) :
    W8 m ρ c (Proc.devRef .tc main_v76) = Cert.Net.x4 A := by
  refine ((W8_arr m ρ c 5).trans (Conv3.final (V7 m ρ) c)).trans ?_
  have e0 : (V7 m ρ c main_v74 : S40000x256.Idx → EReal) = Cert.Net.agg256 (Cert.Net.x3 A) A.a1 := by
    show StableHlo.after hostOps3 (W6 m ρ c) (Proc.devRef .tc main_v74) = _
    after_results
    rw [h.src, h.dst, X]
    rfl
  have e1 : (V7 m ρ c main_v58 : S40000x256.Idx → EReal) = Cert.Net.x3 A := by
    show StableHlo.after hostOps3 (W6 m ρ c) (Proc.devRef .tc main_v58) = _
    after_results
    exact X
  have e2 : (V7 m ρ c main_v60 : S256x256.Idx → EReal) = Cert.ReferenceIdeal.Read.val_main_v75 (F := Ideal) A.a7 := by
    show StableHlo.after hostOps3 (W6 m ρ c) (Proc.devRef .tc main_v60) = _
    after_results
    rw [h.a7]
    rfl
  have e3 : (V7 m ρ c main_v75 : S1x256.Idx → EReal) = Cert.ReferenceIdeal.Read.val_main_v91 (F := Ideal) A.a8 := by
    show StableHlo.after hostOps3 (W6 m ρ c) (Proc.devRef .tc main_v75) = _
    after_results
    rw [h.a8]
    exact rowCast_eq_inDim _ _ _
  have e4 : (V7 m ρ c main_v64 : S256x256.Idx → EReal) = Cert.ReferenceIdeal.Read.val_main_v79 (F := Ideal) A.a9 := by
    show StableHlo.after hostOps3 (W6 m ρ c) (Proc.devRef .tc main_v64) = _
    after_results
    rw [h.a9]
    rfl
  rw [e0, e1, e2, e3, e4]
  rfl

end Cert.KernelIdeal.Chain

end
-- ==== Proof.Conv4.lean ====
/-
  THE DENSE STAGE OF GRAPH-CONVOLUTION LAYER 4, RUN BY A KERNEL OVER BLOCKS OF 2000 NODES.

  The kernel's grid has 20 points; point t is handed rows 2000·t … 2000·t + 1999 of the aggregated features and of the
  node features ([2000, 256] blocks), the two whole weight matrices [256, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv4

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x256 .f32) (v6 v8 : Vec Ideal S256x256 .f32) (v13 : Vec Ideal S1x256 .f32) :
    k4_pay1 v0 v3 v6 v8 v13 = conv v0 v3 v6 v8 v13 := by
  unfold k4_pay1
  simp only [shapeCast_self]
  rw [eq_plain dot_S2000x256_S256x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- WHAT POINT `t` WRITES BACK is block `t` of the stage of the arrays the launch found. -/
theorem flushed_eq (c : Dev nD) (t : Fin cfg4.N) :
    (dat4 V c).flushed 5 t = ((cfg4.win 5).blk t).view.read (Elt Ideal)
      (conv (V c main_v92) (V c main_v76) (V c main_v78) (V c main_v82) (V c main_v93)) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk4 V c 0 t (ix2 (y 0) k) = V c main_v92 _
    unfold iblk4; rw [View.read_apply]
    show V c main_v92 _ = V c main_v92 _
    refine congrArg _ (funext fun a => Fin.ext ?_)
    match a with
    | ⟨0, _⟩ => show win4_0.index t (0 : Fin 2) * 2000 + 1 * (y 0).val = win4_5.index t (0 : Fin 2) * 2000 + 1 * (y 0).val; omega
    | ⟨1, _⟩ => show win4_0.index t (1 : Fin 2) * 256 + 1 * k.val = k.val; omega
  · show iblk4 V c 1 t (ix2 (y 0) k) = V c main_v76 _
    unfold iblk4; rw [View.read_apply]
    show V c main_v76 _ = V c main_v76 _
    refine congrArg _ (funext fun a => Fin.ext ?_)
    match a with
    | ⟨0, _⟩ => show win4_1.index t (0 : Fin 2) * 2000 + 1 * (y 0).val = win4_5.index t (0 : Fin 2) * 2000 + 1 * (y 0).val; omega
    | ⟨1, _⟩ => show win4_1.index t (1 : Fin 2) * 256 + 1 * k.val = k.val; omega
  · show iblk4 V c 2 t (ix2 k (y 1)) = V c main_v78 _
    unfold iblk4; rw [View.read_apply]
    show V c main_v78 _ = V c main_v78 _
    refine congrArg _ (funext fun a => Fin.ext ?_)
    match a with
    | ⟨0, _⟩ => show win4_2.index t (0 : Fin 2) * 256 + 1 * k.val = k.val; omega
    | ⟨1, _⟩ => show win4_2.index t (1 : Fin 2) * 256 + 1 * (y 1).val = win4_5.index t (1 : Fin 2) * 256 + 1 * (y 1).val; omega
  · show iblk4 V c 4 t (ix2 k (y 1)) = V c main_v82 _
    unfold iblk4; rw [View.read_apply]
    show V c main_v82 _ = V c main_v82 _
    refine congrArg _ (funext fun a => Fin.ext ?_)
    match a with
    | ⟨0, _⟩ => show win4_4.index t (0 : Fin 2) * 256 + 1 * k.val = k.val; omega
    | ⟨1, _⟩ => show win4_4.index t (1 : Fin 2) * 256 + 1 * (y 1).val = win4_5.index t (1 : Fin 2) * 256 + 1 * (y 1).val; omega
  · show iblk4 V c 3 t (ix2 0 (y 1)) = V c main_v93 _
    unfold iblk4; rw [View.read_apply]
    show V c main_v93 _ = V c main_v93 _
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * (y 1).val = win4_5.index t (1 : Fin 2) * 256 + 1 * (y 1).val; omega

/-- An index of the result array is in point `t`'s block iff each coordinate is in the block's range on its axis. -/
theorem mem_blk (t : Fin cfg4.N) (i : S40000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v94).slice (win4_5.rect t)).set ↔ _
  rw [View.set_slice_whole, Rect.mem_set_unit]
  exact Iff.rfl

/-- Every index of the result array is in some point's block: row r is in block r / 2000. -/
theorem cover (i : S40000x256.Idx) :
    ∃ t : Fin cfg4.N, (cfg4.win 5).flush t = true ∧ i ∈ ((cfg4.win 5).blk t).view.set := by
  have hN : cfg4.N = 20 := N_4
  have hi0 : (i 0).val < 40000 := (i 0).isLt
  have hi1 : (i 1).val < 256 := (i 1).isLt
  refine ⟨⟨(i 0).val / 2000, by rw [hN]; omega⟩, flush4_5 _, ?_⟩
  rw [mem_blk]
  obtain ⟨-, -, -, -, -, -, -, -, -, -, e50, e51⟩ := idx_facts ⟨(i 0).val / 2000, by rw [hN]; omega⟩
  intro a
  match a with
  | ⟨0, _⟩ =>
    show win4_5.index _ (0 : Fin 2) * 2000 ≤ (i 0).val ∧ (i 0).val < win4_5.index _ (0 : Fin 2) * 2000 + 2000
    rw [e50]; show (i 0).val / 2000 * 2000 ≤ (i 0).val ∧ (i 0).val < (i 0).val / 2000 * 2000 + 2000; omega
  | ⟨1, _⟩ =>
    show win4_5.index _ (1 : Fin 2) * 256 ≤ (i 1).val ∧ (i 1).val < win4_5.index _ (1 : Fin 2) * 256 + 256
    rw [e51]; omega

/-- THE RESULT ARRAY after the launch is the stage of the arrays the launch found. -/
theorem final (c : Dev nD) : (dat4 V c).arrAt 5 cfg4.N
    = conv (V c main_v92) (V c main_v76) (V c main_v78) (V c main_v82) (V c main_v93) :=
  (dat4 V c).arrAt_eq_of_cover 5 _ (fun t _ => flushed_eq V c t) cover

end Cert.KernelIdeal.Conv4

end
-- ==== Proof.Stage5.lean ====
/-
  LAYER 5, READ OFF THE RUN.

  Stretch 4 of host operations slices matrix 3 of each stacked weight argument and row 3 of the stacked biases,
  gathers the previous layer's rows along the edges and scatter-adds them at the destination rows; launch 4 leaves the
  dense stage of those arrays in its result array. Given the previous layer's features and the carried index vectors and
  arguments, each operand the launch finds is the specification's term.
-/
import proofs.«164607_j60988535603354_1_alg».proof.Proof.ChainBase
import proofs.«164607_j60988535603354_1_alg».proof.Proof.Conv4

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After launch 4 the result array holds layer 5's features, if the previous result array held layer 4's. -/
theorem stage5 (c : Dev nD) (A : Cert.Net.Args) (h : Carried (W8 m ρ c) A)
    (X : W8 m ρ c (Proc.devRef .tc main_v76) = Cert.Net.x4 A) :
    W10 m ρ c (Proc.devRef .tc main_v94) = Cert.Net.x5 A := by
  refine ((W10_arr m ρ c 5).trans (Conv4.final (V9 m ρ) c)).trans ?_
  have e0 : (V9 m ρ c main_v92 : S40000x256.Idx → EReal) = Cert.Net.agg256 (Cert.Net.x4 A) A.a1 := by
    show StableHlo.after hostOps4 (W8 m ρ c) (Proc.devRef .tc main_v92) = _
    after_results
    rw [h.src, h.dst, X]
    rfl
  have e1 : (V9 m ρ c main_v76 : S40000x256.Idx → EReal) = Cert.Net.x4 A := by
    show StableHlo.after hostOps4 (W8 m ρ c) (Proc.devRef .tc main_v76) = _
    after_results
    exact X
  have e2 : (V9 m ρ c main_v78 : S256x256.Idx → EReal) = Cert.ReferenceIdeal.Read.val_main_v98 (F := Ideal) A.a7 := by
    show StableHlo.after hostOps4 (W8 m ρ c) (Proc.devRef .tc main_v78) = _
    after_results
    rw [h.a7]
    rfl
  have e3 : (V9 m ρ c main_v93 : S1x256.Idx → EReal) = Cert.ReferenceIdeal.Read.val_main_v114 (F := Ideal) A.a8 := by
    show StableHlo.after hostOps4 (W8 m ρ c) (Proc.devRef .tc main_v93) = _
    after_results
    rw [h.a8]
    exact rowCast_eq_inDim _ _ _
  have e4 : (V9 m ρ c main_v82 : S256x256.Idx → EReal) = Cert.ReferenceIdeal.Read.val_main_v102 (F := Ideal) A.a9 := by
    show StableHlo.after hostOps4 (W8 m ρ c) (Proc.devRef .tc main_v82) = _
    after_results
    rw [h.a9]
    rfl
  rw [e0, e1, e2, e3, e4]
  rfl

end Cert.KernelIdeal.Chain

end
-- ==== Proof.Conv5.lean ====
/-
  THE DENSE STAGE OF GRAPH-CONVOLUTION LAYER 5, RUN BY A KERNEL OVER BLOCKS OF 2000 NODES.

  The kernel's grid has 20 points; point t is handed rows 2000·t … 2000·t + 1999 of the aggregated features and of the
  node features ([2000, 256] blocks), the two whole weight matrices [256, 256] and the bias row [1, 256], and stores
  the [2000, 256] block of the result with the same rows. What it stores is the stage
      max (((agg · w_rel) + (x · w_root)) + b) 0
  of its blocks (`pay_eq`), and the stage at a row reads only that row of agg and of x, so block t of the stage of the
  whole arrays is what point t writes back (`flushed_eq`); the 20 blocks tile the [40000, 256] result (`cover`), so
  after the launch the result array IS the stage of the arrays the launch found (`final`) — whatever those are: the
  statement is at any contents `V` of the buffers at the launch.
-/
import proofs.«164607_j60988535603354_1_alg».proof.Proof.Gen.KernelIdeal.Frame
import proofs.«164607_j60988535603354_1_alg».proof.Proof.LibConvLayer
import Idealize.ShloMosaic.Lib.Pipeline.Value
import Idealize.ShloMosaic.Lib.ValueIdx
import Idealize.ShloMosaic.Lib.Tactic

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx
open Idealize.ShloMosaic.Pipeline (Dat)

namespace Cert.KernelIdeal.Conv5

open Cert.KernelIdeal Cert.KernelIdeal.Gen Cert.Lib.ConvLayer Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- What the body stores is the stage of the blocks it loaded. -/
theorem pay_eq (v0 v3 : Vec Ideal S2000x256 .f32) (v6 v8 : Vec Ideal S256x256 .f32) (v13 : Vec Ideal S1x256 .f32) :
    k5_pay1 v0 v3 v6 v8 v13 = conv v0 v3 v6 v8 v13 := by
  unfold k5_pay1
  simp only [shapeCast_self]
  rw [eq_plain dot_S2000x256_S256x256_S2000x256_1_0_0_1_n_n rfl rfl rfl rfl rfl rfl]
  exact kernel_eq v0 v3 v6 v8 v13 _ _ _ _ _

/-- The printed index maps, decided over the grid: the row windows and the output window sit at block (t, 0), the
    weights and the bias at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- WHAT POINT `t` WRITES BACK is block `t` of the stage of the arrays the launch found. -/
theorem flushed_eq (c : Dev nD) (t : Fin cfg5.N) :
    (dat5 V c).flushed 5 t = ((cfg5.win 5).blk t).view.read (Elt Ideal)
      (conv (V c main_v110) (V c main_v94) (V c main_v96) (V c main_v100) (V c main_v111)) := by
  show (cfg5.win 5).cut (grid5.coords t) ((dat5 V c).after 5 t) = _
  rw [after5_5]
  unfold out5_5
  rw [View.canon_unit_zero hz]
  simp only [View.ld_unit_zero (S := S2000x256) hz, View.ld_unit_zero (S := S256x256) hz, View.ld_unit_zero (S := S1x256) hz]
  rw [pay_eq]
  obtain ⟨e00, e01, e10, e11, e20, e21, e30, e31, e40, e41, e50, e51⟩ := idx_facts t
  funext y
  rw [View.read_apply]
  refine conv_congr _ _ _ _ _ _ _ _ _ _ y _ (fun k => ?_) (fun k => ?_) (fun k => ?_) (fun k => ?_) ?_
  · show iblk5 V c 0 t (ix2 (y 0) k) = V c main_v110 _
    unfold iblk5; rw [View.read_apply]
    show V c main_v110 _ = V c main_v110 _
    refine congrArg _ (funext fun a => Fin.ext ?_)
    match a with
    | ⟨0, _⟩ => show win5_0.index t (0 : Fin 2) * 2000 + 1 * (y 0).val = win5_5.index t (0 : Fin 2) * 2000 + 1 * (y 0).val; omega
    | ⟨1, _⟩ => show win5_0.index t (1 : Fin 2) * 256 + 1 * k.val = k.val; omega
  · show iblk5 V c 1 t (ix2 (y 0) k) = V c main_v94 _
    unfold iblk5; rw [View.read_apply]
    show V c main_v94 _ = V c main_v94 _
    refine congrArg _ (funext fun a => Fin.ext ?_)
    match a with
    | ⟨0, _⟩ => show win5_1.index t (0 : Fin 2) * 2000 + 1 * (y 0).val = win5_5.index t (0 : Fin 2) * 2000 + 1 * (y 0).val; omega
    | ⟨1, _⟩ => show win5_1.index t (1 : Fin 2) * 256 + 1 * k.val = k.val; omega
  · show iblk5 V c 2 t (ix2 k (y 1)) = V c main_v96 _
    unfold iblk5; rw [View.read_apply]
    show V c main_v96 _ = V c main_v96 _
    refine congrArg _ (funext fun a => Fin.ext ?_)
    match a with
    | ⟨0, _⟩ => show win5_2.index t (0 : Fin 2) * 256 + 1 * k.val = k.val; omega
    | ⟨1, _⟩ => show win5_2.index t (1 : Fin 2) * 256 + 1 * (y 1).val = win5_5.index t (1 : Fin 2) * 256 + 1 * (y 1).val; omega
  · show iblk5 V c 4 t (ix2 k (y 1)) = V c main_v100 _
    unfold iblk5; rw [View.read_apply]
    show V c main_v100 _ = V c main_v100 _
    refine congrArg _ (funext fun a => Fin.ext ?_)
    match a with
    | ⟨0, _⟩ => show win5_4.index t (0 : Fin 2) * 256 + 1 * k.val = k.val; omega
    | ⟨1, _⟩ => show win5_4.index t (1 : Fin 2) * 256 + 1 * (y 1).val = win5_5.index t (1 : Fin 2) * 256 + 1 * (y 1).val; omega
  · show iblk5 V c 3 t (ix2 0 (y 1)) = V c main_v111 _
    unfold iblk5; rw [View.read_apply]
    show V c main_v111 _ = V c main_v111 _
    refine congrArg _ (funext fun a => Fin.ext ?_)
    match a with
    | ⟨0, _⟩ => show win5_3.index t (0 : Fin 2) * 1 + 1 * 0 = 0; omega
    | ⟨1, _⟩ => show win5_3.index t (1 : Fin 2) * 256 + 1 * (y 1).val = win5_5.index t (1 : Fin 2) * 256 + 1 * (y 1).val; omega

/-- An index of the result array is in point `t`'s block iff each coordinate is in the block's range on its axis. -/
theorem mem_blk (t : Fin cfg5.N) (i : S40000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v112).slice (win5_5.rect t)).set ↔ _
  rw [View.set_slice_whole, Rect.mem_set_unit]
  exact Iff.rfl

/-- Every index of the result array is in some point's block: row r is in block r / 2000. -/
theorem cover (i : S40000x256.Idx) :
    ∃ t : Fin cfg5.N, (cfg5.win 5).flush t = true ∧ i ∈ ((cfg5.win 5).blk t).view.set := by
  have hN : cfg5.N = 20 := N_5
  have hi0 : (i 0).val < 40000 := (i 0).isLt
  have hi1 : (i 1).val < 256 := (i 1).isLt
  refine ⟨⟨(i 0).val / 2000, by rw [hN]; omega⟩, flush5_5 _, ?_⟩
  rw [mem_blk]
  obtain ⟨-, -, -, -, -, -, -, -, -, -, e50, e51⟩ := idx_facts ⟨(i 0).val / 2000, by rw [hN]; omega⟩
  intro a
  match a with
  | ⟨0, _⟩ =>
    show win5_5.index _ (0 : Fin 2) * 2000 ≤ (i 0).val ∧ (i 0).val < win5_5.index _ (0 : Fin 2) * 2000 + 2000
    rw [e50]; show (i 0).val / 2000 * 2000 ≤ (i 0).val ∧ (i 0).val < (i 0).val / 2000 * 2000 + 2000; omega
  | ⟨1, _⟩ =>
    show win5_5.index _ (1 : Fin 2) * 256 ≤ (i 1).val ∧ (i 1).val < win5_5.index _ (1 : Fin 2) * 256 + 256
    rw [e51]; omega

/-- THE RESULT ARRAY after the launch is the stage of the arrays the launch found. -/
theorem final (c : Dev nD) : (dat5 V c).arrAt 5 cfg5.N
    = conv (V c main_v110) (V c main_v94) (V c main_v96) (V c main_v100) (V c main_v111) :=
  (dat5 V c).arrAt_eq_of_cover 5 _ (fun t _ => flushed_eq V c t) cover

end Cert.KernelIdeal.Conv5

end
-- ==== Proof.Stage6.lean ====
/-
  LAYER 6, READ OFF THE RUN.

  Stretch 5 of host operations slices matrix 4 of each stacked weight argument and row 4 of the stacked biases,
  gathers the previous layer's rows along the edges and scatter-adds them at the destination rows; launch 5 leaves the
  dense stage of those arrays in its result array. Given the previous layer's features and the carried index vectors and
  arguments, each operand the launch finds is the specification's term.
-/
import proofs.«164607_j60988535603354_1_alg».proof.Proof.ChainBase
import proofs.«164607_j60988535603354_1_alg».proof.Proof.Conv5

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After launch 5 the result array holds layer 6's features, if the previous result array held layer 5's. -/
theorem stage6 (c : Dev nD) (A : Cert.Net.Args) (h : Carried (W10 m ρ c) A)
    (X : W10 m ρ c (Proc.devRef .tc main_v94) = Cert.Net.x5 A) :
    W12 m ρ c (Proc.devRef .tc main_v112) = Cert.Net.x6 A := by
  refine ((W12_arr m ρ c 5).trans (Conv5.final (V11 m ρ) c)).trans ?_
  have e0 : (V11 m ρ c main_v110 : S40000x256.Idx → EReal) = Cert.Net.agg256 (Cert.Net.x5 A) A.a1 := by
    show StableHlo.after hostOps5 (W10 m ρ c) (Proc.devRef .tc main_v110) = _
    after_results
    rw [h.src, h.dst, X]
    rfl
  have e1 : (V11 m ρ c main_v94 : S40000x256.Idx → EReal) = Cert.Net.x5 A := by
    show StableHlo.after hostOps5 (W10 m ρ c) (Proc.devRef .tc main_v94) = _
    after_results
    exact X
  have e2 : (V11 m ρ c main_v96 : S256x256.Idx → EReal) = Cert.ReferenceIdeal.Read.val_main_v121 (F := Ideal) A.a7 := by
    show StableHlo.after hostOps5 (W10 m ρ c) (Proc.devRef .tc main_v96) = _
    after_results
    rw [h.a7]
    rfl
  have e3 : (V11 m ρ c main_v111 : S1x256.Idx → EReal) = Cert.ReferenceIdeal.Read.val_main_v137 (F := Ideal) A.a8 := by
    show StableHlo.after hostOps5 (W10 m ρ c) (Proc.devRef .tc main_v111) = _
    after_results
    rw [h.a8]
    exact rowCast_eq_inDim _ _ _
  have e4 : (V11 m ρ c main_v100 : S256x256.Idx → EReal) = Cert.ReferenceIdeal.Read.val_main_v125 (F := Ideal) A.a9 := by
    show StableHlo.after hostOps5 (W10 m ρ c) (Proc.devRef .tc main_v100) = _
    after_results
    rw [h.a9]
    rfl
  rw [e0, e1, e2, e3, e4]
  rfl

end Cert.KernelIdeal.Chain

end
-- ==== Proof.Head6.lean ====
/-
  THE PERCEPTRON HEAD, RUN BY A KERNEL AT ONE GRID POINT.

  The kernel's grid has a single point, and every window's block there is its whole array: the pooled features
  [128, 256], the first layer's matrix [256, 512] and bias row [1, 512], a stack of two matrices [2, 512, 512], a stack
  of two bias rows [2, 1, 512], the last layer's column [512, 1] and bias [1, 1], and the result [128, 1]. The body
  takes matrix l of the stack as the slab at offset (l, 0, 0) of extent [1, 512, 512] with its leading unit axis
  dropped, which at (p, q) is the stack at (l, p, q) (`slab0_eq`, `slab1_eq`), and bias row l likewise
  (`brow0_eq`, `brow1_eq`). What it stores is then three rectified dense layers followed by a last dense layer
  without a rectifier, of the arrays it loaded (`pay_eq`); the blocks being the whole arrays (`blk0_eq` ... `blk6_eq`),
  the one point writes back the head of the arrays the launch found (`flushed_eq`), its block is the whole result
  (`cover`), and so after the launch the result array IS the head of those arrays (`final`) - whatever they are: the
  statement is at any contents `V` of the buffers at the launch.
-/
import proofs.«164607_j60988535603354_1_alg».proof.Proof.Gen.KernelIdeal.Frame
import proofs.«164607_j60988535603354_1_alg».proof.Proof.LibConvLayer
import proofs.«164607_j60988535603354_1_alg».proof.Proof.LibHead
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head6

open Cert.KernelIdeal Cert.KernelIdeal.Gen Cert.Lib.ConvLayer Cert.Lib.PlainDot
open Cert.Lib.ReluLayer Cert.Lib.Head

variable (V : (c : Dev nD) → (b : Ref sig .tc) → Buf (Elt Ideal) ((c : Thread nD τ).loc b))

theorem hz : (![0, 0] : Fin 2 → Nat) = fun _ => 0 := funext fun a => by fin_cases a <;> rfl

/-! ## A slab of a stack with its leading unit axis dropped -/

/-- Row-major position: (0, p, q) in [1, 512, 512] and (p, q) in [512, 512] are the same position. -/
theorem pos_slab (j : S512x512.Idx) :
    (S1x512x512.rowMajor (ix3 0 (j 0) (j 1))).val = (S512x512.rowMajor j).val := by
  rw [Shape.rowMajor_val_three, Shape.rowMajor_val_two]
  show ((0 : Nat) * 512 + (j 0).val) * 512 + (j 1).val = (j 0).val * 512 + (j 1).val
  omega

/-- Row-major position: (0, 0, q) in [1, 1, 512] and (0, q) in [1, 512] are the same position. -/
theorem pos_brow (j : S1x512.Idx) :
    (S1x1x512.rowMajor (ix3 0 0 (j 1))).val = (S1x512.rowMajor j).val := by
  have h0 : (j 0).val < 1 := (j 0).isLt
  rw [Shape.rowMajor_val_three, Shape.rowMajor_val_two]
  show ((0 : Nat) * 1 + 0) * 512 + (j 1).val = (j 0).val * 512 + (j 1).val
  omega

/-- The slab at offset (0, 0, 0) of the stack of matrices, as a matrix, is matrix 0 of the stack. -/
theorem slab0_eq (x3 : Vec Ideal S2x512x512 .f32) (h : S1x512x512.ShapeCasts S512x512) :
    shapeCast (s := S1x512x512) S512x512 (View.ld x3 r6_3) h = mat x3 0 := by
  funext j
  rw [shapeCast_apply (s := S1x512x512) (View.ld x3 r6_3) h j (ix3 0 (j 0) (j 1)) (pos_slab j)]
  show x3 _ = x3 _
  refine congrArg x3 (funext fun a => Fin.ext ?_)
  match a with
  | ⟨0, _⟩ => rfl
  | ⟨1, _⟩ => show 0 + 1 * (j 0).val = (j 0).val; omega
  | ⟨2, _⟩ => show 0 + 1 * (j 1).val = (j 1).val; omega

/-- The slab at offset (1, 0, 0) of the stack of matrices, as a matrix, is matrix 1 of the stack. -/
theorem slab1_eq (x3 : Vec Ideal S2x512x512 .f32) (h : S1x512x512.ShapeCasts S512x512) :
    shapeCast (s := S1x512x512) S512x512 (View.ld x3 r6_5) h = mat x3 1 := by
  funext j
  rw [shapeCast_apply (s := S1x512x512) (View.ld x3 r6_5) h j (ix3 0 (j 0) (j 1)) (pos_slab j)]
  show x3 _ = x3 _
  refine congrArg x3 (funext fun a => Fin.ext ?_)
  match a with
  | ⟨0, _⟩ => rfl
  | ⟨1, _⟩ => show 0 + 1 * (j 0).val = (j 0).val; omega
  | ⟨2, _⟩ => show 0 + 1 * (j 1).val = (j 1).val; omega

/-- The slab at offset (0, 0, 0) of the stack of bias rows, as a row, is row 0 of the stack. -/
theorem brow0_eq (x4 : Vec Ideal S2x1x512 .f32) (h : S1x1x512.ShapeCasts S1x512) :
    shapeCast (s := S1x1x512) S1x512 (View.ld x4 r6_4) h = row x4 0 := by
  funext j
  rw [shapeCast_apply (s := S1x1x512) (View.ld x4 r6_4) h j (ix3 0 0 (j 1)) (pos_brow j)]
  show x4 _ = x4 _
  refine congrArg x4 (funext fun a => Fin.ext ?_)
  match a with
  | ⟨0, _⟩ => rfl
  | ⟨1, _⟩ => rfl
  | ⟨2, _⟩ => show 0 + 1 * (j 1).val = (j 1).val; omega

/-- The slab at offset (1, 0, 0) of the stack of bias rows, as a row, is row 1 of the stack. -/
theorem brow1_eq (x4 : Vec Ideal S2x1x512 .f32) (h : S1x1x512.ShapeCasts S1x512) :
    shapeCast (s := S1x1x512) S1x512 (View.ld x4 r6_6) h = row x4 1 := by
  funext j
  rw [shapeCast_apply (s := S1x1x512) (View.ld x4 r6_6) h j (ix3 0 0 (j 1)) (pos_brow j)]
  show x4 _ = x4 _
  refine congrArg x4 (funext fun a => Fin.ext ?_)
  match a with
  | ⟨0, _⟩ => rfl
  | ⟨1, _⟩ => rfl
  | ⟨2, _⟩ => show 0 + 1 * (j 1).val = (j 1).val; omega

/-! ## What the body stores -/

/-- What the body stores is the head of the arrays it loaded. -/
theorem pay_eq (x0 : Vec Ideal S128x256 .f32) (x1 : Vec Ideal S256x512 .f32) (x2 : Vec Ideal S1x512 .f32)
    (x3 : Vec Ideal S2x512x512 .f32) (x4 : Vec Ideal S2x1x512 .f32) (x5 : Vec Ideal S512x1 .f32)
    (x6 : Vec Ideal S1x1 .f32) :
    k6_pay1 (k6_pay2 x0 x1 x2 (View.ld x3 r6_3) (View.ld x4 r6_4) (View.ld x3 r6_5) (View.ld x4 r6_6)) x5 x6
      = head2 x0 x1 x2 x3 x4 x5 x6 := by
  unfold k6_pay1 k6_pay2
  simp only [shapeCast_self]
  rw [slab0_eq, slab1_eq, brow0_eq, brow1_eq]
  rw [eq_plain dot_S128x256_S256x512_S128x512_1_0_0_1_n_n rfl rfl rfl rfl rfl rfl,
    eq_plain dot_S128x512_S512x512_S128x512_1_0_0_1_n_n rfl rfl rfl rfl rfl rfl,
    eq_plain dot_S128x512_S512x1_S128x1_1_0_0_1_n_n rfl rfl rfl rfl rfl rfl]
  rw [Cert.Lib.ReluLayer.kernel_eq (A := 128) (K := 256) (B := 512) (by decide) x0 x1 x2]
  rw [Cert.Lib.ReluLayer.kernel_eq (A := 128) (K := 512) (B := 512) (by decide) (layer x0 x1 x2) (mat x3 0) (row x4 0)]
  rw [Cert.Lib.ReluLayer.kernel_eq (A := 128) (K := 512) (B := 512) (by decide)
    (layer (layer x0 x1 x2) (mat x3 0) (row x4 0)) (mat x3 1) (row x4 1)]
  exact affine_kernel_eq _ x5 x6 _ _ _

/-! ## The blocks at the one point are the whole arrays -/

/-- The printed index maps, decided over the grid: every window sits at block zero on every axis. -/
theorem idx_facts : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 3) = 0 ∧ win6_3.index t (1 : Fin 3) = 0 ∧ win6_3.index t (2 : Fin 3) = 0
    ∧ win6_4.index t (0 : Fin 3) = 0 ∧ win6_4.index t (1 : Fin 3) = 0 ∧ win6_4.index t (2 : Fin 3) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

theorem blk0_eq (c : Dev nD) (t : Fin cfg6.N) : (iblk6 V c 0 t : Vec Ideal S128x256 .f32) = V c main_v115 := by
  obtain ⟨e00, e01, -⟩ := idx_facts t
  funext y
  unfold iblk6; rw [View.read_apply]
  show V c main_v115 _ = V c main_v115 _
  refine congrArg _ (funext fun a => Fin.ext ?_)
  match a with
  | ⟨0, _⟩ => show win6_0.index t (0 : Fin 2) * 128 + 1 * (y 0).val = (y 0).val; omega
  | ⟨1, _⟩ => show win6_0.index t (1 : Fin 2) * 256 + 1 * (y 1).val = (y 1).val; omega

theorem blk1_eq (c : Dev nD) (t : Fin cfg6.N) : (iblk6 V c 1 t : Vec Ideal S256x512 .f32) = V c main_arg10 := by
  obtain ⟨-, -, e10, e11, -⟩ := idx_facts t
  funext y
  unfold iblk6; rw [View.read_apply]
  show V c main_arg10 _ = V c main_arg10 _
  refine congrArg _ (funext fun a => Fin.ext ?_)
  match a with
  | ⟨0, _⟩ => show win6_1.index t (0 : Fin 2) * 256 + 1 * (y 0).val = (y 0).val; omega
  | ⟨1, _⟩ => show win6_1.index t (1 : Fin 2) * 512 + 1 * (y 1).val = (y 1).val; omega

theorem blk2_eq (c : Dev nD) (t : Fin cfg6.N) : (iblk6 V c 2 t : Vec Ideal S1x512 .f32) = V c main_v116 := by
  obtain ⟨-, -, -, -, e20, e21, -⟩ := idx_facts t
  funext y
  unfold iblk6; rw [View.read_apply]
  show V c main_v116 _ = V c main_v116 _
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 512 + 1 * (y 1).val = (y 1).val; omega

theorem blk3_eq (c : Dev nD) (t : Fin cfg6.N) : (iblk6 V c 3 t : Vec Ideal S2x512x512 .f32) = V c main_arg12 := by
  obtain ⟨-, -, -, -, -, -, e30, e31, e32, -⟩ := idx_facts t
  funext y
  unfold iblk6; rw [View.read_apply]
  show V c main_arg12 _ = V c main_arg12 _
  refine congrArg _ (funext fun a => Fin.ext ?_)
  match a with
  | ⟨0, _⟩ => show win6_3.index t (0 : Fin 3) * 2 + 1 * (y 0).val = (y 0).val; omega
  | ⟨1, _⟩ => show win6_3.index t (1 : Fin 3) * 512 + 1 * (y 1).val = (y 1).val; omega
  | ⟨2, _⟩ => show win6_3.index t (2 : Fin 3) * 512 + 1 * (y 2).val = (y 2).val; omega

theorem blk4_eq (c : Dev nD) (t : Fin cfg6.N) : (iblk6 V c 4 t : Vec Ideal S2x1x512 .f32) = V c main_v117 := by
  obtain ⟨-, -, -, -, -, -, -, -, -, e40, e41, e42, -⟩ := idx_facts t
  funext y
  unfold iblk6; rw [View.read_apply]
  show V c main_v117 _ = V c main_v117 _
  refine congrArg _ (funext fun a => Fin.ext ?_)
  match a with
  | ⟨0, _⟩ => show win6_4.index t (0 : Fin 3) * 2 + 1 * (y 0).val = (y 0).val; omega
  | ⟨1, _⟩ => show win6_4.index t (1 : Fin 3) * 1 + 1 * (y 1).val = (y 1).val; omega
  | ⟨2, _⟩ => show win6_4.index t (2 : Fin 3) * 512 + 1 * (y 2).val = (y 2).val; omega

theorem blk5_eq (c : Dev nD) (t : Fin cfg6.N) : (iblk6 V c 5 t : Vec Ideal S512x1 .f32) = V c main_arg14 := by
  obtain ⟨-, -, -, -, -, -, -, -, -, -, -, -, e50, e51, -⟩ := idx_facts t
  funext y
  unfold iblk6; rw [View.read_apply]
  show V c main_arg14 _ = V c main_arg14 _
  refine congrArg _ (funext fun a => Fin.ext ?_)
  match a with
  | ⟨0, _⟩ => show win6_5.index t (0 : Fin 2) * 512 + 1 * (y 0).val = (y 0).val; omega
  | ⟨1, _⟩ => show win6_5.index t (1 : Fin 2) * 1 + 1 * (y 1).val = (y 1).val; omega

theorem blk6_eq (c : Dev nD) (t : Fin cfg6.N) : (iblk6 V c 6 t : Vec Ideal S1x1 .f32) = V c main_v118 := by
  obtain ⟨-, -, -, -, -, -, -, -, -, -, -, -, -, -, e60, e61, -⟩ := idx_facts t
  funext y
  unfold iblk6; rw [View.read_apply]
  show V c main_v118 _ = V c main_v118 _
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 1 + 1 * (y 1).val = (y 1).val; omega

/-! ## From the one block to the array -/

/-- WHAT THE POINT WRITES BACK is its block of the head of the arrays the launch found. -/
theorem flushed_eq (c : Dev nD) (t : Fin cfg6.N) :
    (dat6 V c).flushed 7 t = ((cfg6.win 7).blk t).view.read (Elt Ideal)
      (head2 (V c main_v115) (V c main_arg10) (V c main_v116) (V c main_arg12) (V c main_v117) (V c main_arg14)
        (V c main_v118)) := by
  show (cfg6.win 7).cut (grid6.coords t) ((dat6 V c).after 7 t) = _
  rw [after6_7]
  unfold out6_7
  rw [View.canon_unit_zero hz]
  simp only [View.ld_unit_zero (S := S128x256) hz, View.ld_unit_zero (S := S256x512) hz,
    View.ld_unit_zero (S := S1x512) hz, View.ld_unit_zero (S := S512x1) hz, View.ld_unit_zero (S := S1x1) hz]
  rw [pay_eq]
  rw [blk0_eq, blk1_eq, blk2_eq, blk3_eq, blk4_eq, blk5_eq, blk6_eq]
  obtain ⟨-, -, -, -, -, -, -, -, -, -, -, -, -, -, -, -, e70, e71⟩ := idx_facts t
  funext y
  rw [View.read_apply]
  show head2 _ _ _ _ _ _ _ _ = head2 _ _ _ _ _ _ _ _
  refine congrArg _ (funext fun a => Fin.ext ?_)
  match a with
  | ⟨0, _⟩ => show (y 0).val = win6_7.index t (0 : Fin 2) * 128 + 1 * (y 0).val; omega
  | ⟨1, _⟩ => show (y 1).val = win6_7.index t (1 : Fin 2) * 1 + 1 * (y 1).val; omega

/-- An index of the result array is in the point`s block iff each coordinate is in the block`s range on its axis. -/
theorem mem_blk (t : Fin cfg6.N) (i : S128x1.Idx) :
    i ∈ ((cfg6.win 7).blk t).view.set ↔ ∀ a : Fin 2, win6_7.index t a * S128x1.size a ≤ (i a).val ∧ (i a).val < win6_7.index t a * S128x1.size a + S128x1.size a := by
  show i ∈ ((View.whole main_v119).slice (win6_7.rect t)).set ↔ _
  rw [View.set_slice_whole, Rect.mem_set_unit]
  exact Iff.rfl

/-- Every index of the result array is in the one point's block, which is the whole array. -/
theorem cover (i : S128x1.Idx) :
    ∃ t : Fin cfg6.N, (cfg6.win 7).flush t = true ∧ i ∈ ((cfg6.win 7).blk t).view.set := by
  have hi0 : (i 0).val < 128 := (i 0).isLt
  have hi1 : (i 1).val < 1 := (i 1).isLt
  refine ⟨t6_0, flush6_7 _, ?_⟩
  rw [mem_blk]
  obtain ⟨-, -, -, -, -, -, -, -, -, -, -, -, -, -, -, -, e70, e71⟩ := idx_facts t6_0
  intro a
  match a with
  | ⟨0, _⟩ =>
    show win6_7.index _ (0 : Fin 2) * 128 ≤ (i 0).val ∧ (i 0).val < win6_7.index _ (0 : Fin 2) * 128 + 128
    rw [e70]; omega
  | ⟨1, _⟩ =>
    show win6_7.index _ (1 : Fin 2) * 1 ≤ (i 1).val ∧ (i 1).val < win6_7.index _ (1 : Fin 2) * 1 + 1
    rw [e71]; omega

/-- THE RESULT ARRAY after the launch is the head of the arrays the launch found. -/
theorem final (c : Dev nD) : (dat6 V c).arrAt 7 cfg6.N
    = head2 (V c main_v115) (V c main_arg10) (V c main_v116) (V c main_arg12) (V c main_v117) (V c main_arg14)
        (V c main_v118) :=
  (dat6 V c).arrAt_eq_of_cover 7 _ (fun t _ => flushed_eq V c t) cover

end Cert.KernelIdeal.Head6

end
-- ==== Proof.Stage7.lean ====
/-
  THE HEAD, READ OFF THE RUN.

  The last stretch of host operations sums the last layer's rows per graph (a scatter-add at the graph index of each
  node) and recasts the head's bias vectors as rows; the last launch leaves the head of those arrays in the program's
  result. Each operand the launch finds is the specification's term: a bias vector recast as a row is the vector
  broadcast along a new leading axis, and the bias table [2, 512] recast as [2, 1, 512] is the stack of its rows.
-/
import proofs.«164607_j60988535603354_1_alg».proof.Proof.ChainBase
import proofs.«164607_j60988535603354_1_alg».proof.Proof.Head6

set_option maxRecDepth 16384
-- a buffer reference's array type is found by a lookup in the program's buffer table, long for late references
set_option maxHeartbeats 4000000

noncomputable section

open Idealize.ShloMosaic Idealize.ShloMosaic.TcCoe Idealize.SL.Sem Idealize.ShloMosaic.ValueIdx Idealize.ShloMosaic.StableHlo

namespace Cert.KernelIdeal.Chain

open Cert.KernelIdeal Cert.KernelIdeal.Gen Cert.Lib.ConvLayer Cert.Lib.Head

variable (m : (ℓ : Loc nD τ sig) → Buf (Elt Ideal) ℓ) (ρ : Dev nD → PrngReg)

/-- After the last launch the program's result holds the network's result, if the sixth result array held the last
    layer's features. -/
theorem stage7 (c : Dev nD) (A : Cert.Net.Args) (h : Carried (W12 m ρ c) A)
    (X : W12 m ρ c (Proc.devRef .tc main_v112) = Cert.Net.x6 A) :
    W14 m ρ c (Proc.devRef .tc main_v119) = Cert.Net.out A := by
  refine ((W14_arr m ρ c 7).trans (Head6.final (V13 m ρ) c)).trans ?_
  have e0 : (V13 m ρ c main_v115 : S128x256.Idx → EReal) = Cert.Net.pool (Cert.Net.x6 A) A.a2 := by
    show StableHlo.after hostOps6 (W12 m ρ c) (Proc.devRef .tc main_v115) = _
    after_results
    rw [h.a2, X]
    rfl
  have e1 : (V13 m ρ c main_arg10 : S256x512.Idx → EReal) = A.a10 := by
    show StableHlo.after hostOps6 (W12 m ρ c) (Proc.devRef .tc main_arg10) = _
    after_results
    exact h.a10
  have e2 : (V13 m ρ c main_v116 : S1x512.Idx → EReal) = Cert.ReferenceIdeal.Read.val_main_v147 (F := Ideal) A.a11 := by
    show StableHlo.after hostOps6 (W12 m ρ c) (Proc.devRef .tc main_v116) = _
    after_results
    rw [h.a11]
    exact rowCast_eq_inDim _ _ _
  have e3 : (V13 m ρ c main_arg12 : S2x512x512.Idx → EReal) = A.a12 := by
    show StableHlo.after hostOps6 (W12 m ρ c) (Proc.devRef .tc main_arg12) = _
    after_results
    exact h.a12
  have e4 : (V13 m ρ c main_v117 : S2x1x512.Idx → EReal) = stackRows A.a13 := by
    show StableHlo.after hostOps6 (W12 m ρ c) (Proc.devRef .tc main_v117) = _
    after_results
    rw [h.a13]
    exact stackCast_eq _ _
  have e5 : (V13 m ρ c main_arg14 : S512x1.Idx → EReal) = A.a14 := by
    show StableHlo.after hostOps6 (W12 m ρ c) (Proc.devRef .tc main_arg14) = _
    after_results
    exact h.a14
  have e6 : (V13 m ρ c main_v118 : S1x1.Idx → EReal) = Cert.ReferenceIdeal.Read.val_main_v170 (F := Ideal) A.a15 := by
    show StableHlo.after hostOps6 (W12 m ρ c) (Proc.devRef .tc main_v118) = _
    after_results
    rw [h.a15]
    exact rowCast_eq_inDim _ _ _
  rw [e0, e1, e2, e3, e4, e5, e6]
  rfl

end Cert.KernelIdeal.Chain

end
-- ==== Proof.Assemble.lean ====
/-
  THE IDEALIZED KERNEL PROGRAM'S RESULT IS THE NETWORK OF ITS ARGUMENTS.

  The seven stage lemmas chained: after launch k the k-th result array holds layer k's features, the carried index
  vectors and arguments are as after the first stretch; after the last launch the program's result holds the head of
  the pooled last layer, which is the specification's `Cert.Net.out` of the arguments as launched.
-/
import proofs.«164607_j60988535603354_1_alg».proof.Proof.Stage1
import proofs.«164607_j60988535603354_1_alg».proof.Proof.Stage2
import proofs.«164607_j60988535603354_1_alg».proof.Proof.Stage3
import proofs.«164607_j60988535603354_1_alg».proof.Proof.Stage4
import proofs.«164607_j60988535603354_1_alg».proof.Proof.Stage5
import proofs.«164607_j60988535603354_1_alg».proof.Proof.Stage6
import proofs.«164607_j60988535603354_1_alg».proof.Proof.Stage7

set_option maxRecDepth 16384
set_option maxHeartbeats 4000000

noncomputable section

open Idealize.ShloMosaic Idealize.ShloMosaic.TcCoe Idealize.SL.Sem

namespace Cert.KernelIdeal.Chain

open Cert.KernelIdeal Cert.KernelIdeal.Gen

variable (m : (ℓ : Loc nD τ sig) → Buf (Elt Ideal) ℓ) (ρ : Dev nD → PrngReg)

/-- The last boundary's contents of the result buffer. -/
theorem result (c : Dev nD) : W14 m ρ c (Proc.devRef .tc main_v119) = Cert.Net.out (argsOf m c) :=
  have h1 := carried1 m ρ c
  have x1 := stage1 m ρ c
  have h2 := carried2 m ρ c _ h1
  have x2 := stage2 m ρ c _ h1 x1
  have h3 := carried3 m ρ c _ h2
  have x3 := stage3 m ρ c _ h2 x2
  have h4 := carried4 m ρ c _ h3
  have x4 := stage4 m ρ c _ h3 x3
  have h5 := carried5 m ρ c _ h4
  have x5 := stage5 m ρ c _ h4 x4
  have h6 := carried6 m ρ c _ h5
  have x6 := stage6 m ρ c _ h5 x5
  stage7 m ρ c _ h6 x6

end Cert.KernelIdeal.Chain

end
-- ==== Proof.lean ====
/-
  The proof of `Cert.Claim` for a stacked graph-convolution network with a perceptron head.

  Both programs compute, from node indices, an edge table, a graph index per node and the weights: embedded node
  features; six layers, each replacing every node's features x_i by
      max (((sum over the edges into i of the source node's features) · w_rel + x_i · w_root) + b_rel) 0 ;
  the sum of the last layer's features per graph; and three rectified dense layers and a last dense layer on those
  sums. The reference runs all of it as host operations. The kernel program runs the index plumbing (gathers,
  scatter-adds, slices of the stacked weights) as the same host operations on the same arguments, and the dense stage of
  each layer and the whole head in seven kernel launches: a layer's launch walks the 40000 nodes in 20 blocks of 2000
  rows, each row of the result depending on the same row of its two row operands only, so the blocks tile the result
  with the stage of the whole arrays; the head's launch has one point. At the ideal values rounding the operands of a
  product to bf16 is the identity and a kernel's product into a zero accumulator is the host's product, so the one
  difference left is the order of the three summands of a layer — (agg · w_rel + x · w_root) + b in the kernel,
  (agg · w_rel + b) + x · w_root in the reference — and addition on the extended reals is commutative and associative,
  infinities included: the claim needs no finiteness of the inputs.

  The modules: `Net` states the network as one function of the sixteen arguments; `RefNet` shows the reference's
  composed term is it; `Conv0` … `Conv5` and `Head6` show what each launch leaves in its result array, at any contents
  of the buffers at the launch; `RunValue` restates the kernel program's run keeping every buffer's final contents;
  `ChainBase`, `Stage1` … `Stage7` and `Assemble` read the result back through the fourteen segments. The three frames
  are the generated ones (the reference's is its generated run with the result dropped); the idealization rewrote no
  operation, so `preserves` is trivial.
-/
import proofs.«164607_j60988535603354_1_alg».proof.Defs
import proofs.«164607_j60988535603354_1_alg».proof.Proof.Gen.Kernel
import proofs.«164607_j60988535603354_1_alg».proof.Proof.Gen.Kernel.Skeleton
import proofs.«164607_j60988535603354_1_alg».proof.Proof.Gen.Kernel.Launch
import proofs.«164607_j60988535603354_1_alg».proof.Proof.Gen.Kernel.Points
import proofs.«164607_j60988535603354_1_alg».proof.Proof.Gen.Kernel.Frame
import proofs.«164607_j60988535603354_1_alg».proof.Proof.Gen.KernelIdeal
import proofs.«164607_j60988535603354_1_alg».proof.Proof.Gen.KernelIdeal.Skeleton
import proofs.«164607_j60988535603354_1_alg».proof.Proof.Gen.KernelIdeal.Launch
import proofs.«164607_j60988535603354_1_alg».proof.Proof.Gen.KernelIdeal.Points
import proofs.«164607_j60988535603354_1_alg».proof.Proof.Gen.KernelIdeal.Frame
import proofs.«164607_j60988535603354_1_alg».proof.Proof.Gen.ReferenceIdeal
import proofs.«164607_j60988535603354_1_alg».proof.Proof.Gen.ReferenceIdeal.Run
import proofs.«164607_j60988535603354_1_alg».proof.Proof.Gen.ReferenceIdeal.Read
import proofs.«164607_j60988535603354_1_alg».proof.Proof.Gen.Pre_finite_inputs
import proofs.«164607_j60988535603354_1_alg».proof.Proof.RunValue
import proofs.«164607_j60988535603354_1_alg».proof.Proof.RefNet
import proofs.«164607_j60988535603354_1_alg».proof.Proof.Assemble
import Idealize.ShloMosaic.Adequacy
import Idealize.ShloMosaic.Init

set_option maxRecDepth 16384
set_option maxHeartbeats 4000000

noncomputable section

namespace Cert.Proof

open Idealize.ShloMosaic Idealize.SL.Sem

namespace GraphNet

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network's result of the arguments: the kernel program by the chain of its fourteen
    segments, the reference by its composed term; the two memories agree on the arguments. -/
theorem algebraic : Cert.algebraic_KernelIdeal_ReferenceIdeal := by
  intro m ρ m' ρ' _ hagree
  refine ⟨fun c => Cert.Net.out (Cert.KernelIdeal.Chain.argsOf m c), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15⟩ := hagree c
    rw [(h c).1, Cert.ReferenceIdeal.Read.val_main_v172_eq, h0, h1, h2, h3, h4, h5, h6, h7, h8, h9, h10, h11, h12, h13, h14, h15]
    exact Cert.RefNet.result_eq (Cert.KernelIdeal.Chain.argsOf m c)

end GraphNet

theorem claim : Cert.Claim := ⟨Cert.Kernel.Gen.facts, Cert.KernelIdeal.Gen.facts, Cert.ReferenceIdeal.Gen.facts, Cert.Pre_finite_inputs.Gen.facts,
  GraphNet.frame_k, GraphNet.frame_ki, GraphNet.frame_ri, GraphNet.preserves, GraphNet.algebraic⟩

end Cert.Proof

end
